-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x9 : Shape := ⟨2, ![4194304, 9]⟩
abbrev S_ : Shape := ⟨0, ![]⟩

class Facts : Prop where
  bcast_S_S4194304x9 : S_.BroadcastsInDim S4194304x9 (![] : Fin 0 → Fin S4194304x9.rank)
  reducesTo_S4194304x9_S_d0_1 : S4194304x9.ReducesTo [0, 1] S_
  h_S_ : 0 < S_.numel

variable [Facts]

def fn {F : FTy → Type} [FloatOps F] (main_arg0 : FVec F S4194304x9 .f32) : IVec S_ 1 :=
  let main_v0 : FVec F S4194304x9 .f32 := Host.absf main_arg0
  let main_cst : FVec F S_ .f32 := constant S_ .f32 0x7F800000#32
  let main_v1 : FVec F S4194304x9 .f32 := broadcastInDim S4194304x9 ![] bcast_S_S4194304x9 main_cst
  let main_v2 : IVec S4194304x9 1 := cmpf .olt main_v0 main_v1
  let main_c : IVec S_ 1 := constantI S_ 1 1#1
  let main_v3 : IVec S_ 1 := (fun x v => Host.reduce IntOp.andi x v reducesTo_S4194304x9_S_d0_1 h_S_) main_v2 main_c
  main_v3
-- ==== Kernel.lean ====
abbrev S4194304x9 : Shape := ⟨2, ![4194304, 9]⟩
abbrev S9x4194304 : Shape := ⟨2, ![9, 4194304]⟩
abbrev S9x32768x128 : Shape := ⟨3, ![9, 32768, 128]⟩
abbrev S3x32768x128 : Shape := ⟨3, ![3, 32768, 128]⟩
abbrev S9x1024x128 : Shape := ⟨3, ![9, 1024, 128]⟩
abbrev S3x1024x128 : Shape := ⟨3, ![3, 1024, 128]⟩
abbrev S1x1024x128 : Shape := ⟨3, ![1, 1024, 128]⟩
abbrev S1024x128 : Shape := ⟨2, ![1024, 128]⟩
abbrev S3x4194304 : Shape := ⟨2, ![3, 4194304]⟩
abbrev S4194304x3 : Shape := ⟨2, ![4194304, 3]⟩
abbrev S4194304x1x3 : Shape := ⟨3, ![4194304, 1, 3]⟩

abbrev nBuf : Space → Nat
  | .hbm => 7
  | .vmem => 4
  | .smem => 0
  | _ => 0

abbrev bufTy : (tb : Table) → Fin (tcTables nBuf tb) → BufTy
  | .hbm, ⟨0, _⟩ => ⟨S4194304x9, .f32⟩
  | .hbm, ⟨1, _⟩ => ⟨S9x4194304, .f32⟩
  | .hbm, ⟨2, _⟩ => ⟨S9x32768x128, .f32⟩
  | .hbm, ⟨3, _⟩ => ⟨S3x32768x128, .f32⟩
  | .hbm, ⟨4, _⟩ => ⟨S3x4194304, .f32⟩
  | .hbm, ⟨5, _⟩ => ⟨S4194304x3, .f32⟩
  | .hbm, ⟨6, _⟩ => ⟨S4194304x1x3, .f32⟩
  | .local _ .vmem, ⟨0, _⟩ => ⟨S9x1024x128, .f32⟩
  | .local _ .vmem, ⟨1, _⟩ => ⟨S9x1024x128, .f32⟩
  | .local _ .vmem, ⟨2, _⟩ => ⟨S3x1024x128, .f32⟩
  | .local _ .vmem, ⟨3, _⟩ => ⟨S3x1024x128, .f32⟩
  | _, _ => ⟨S4194304x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S9x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S4194304x9_S9x4194304_1_0 : S4194304x9.Transposes [1, 0] S9x4194304
  shapeCasts_S9x4194304_S9x32768x128 : S9x4194304.ShapeCasts S9x32768x128
  inb_S9x1024x128_S1x1024x128_0_0_0 : ∀ a, (![0, 0, 0] : Fin 3 → Nat) a + S1x1024x128.size a ≤ S9x1024x128.size a
  h_S1x1024x128 : 0 < S1x1024x128.numel
  shapeCasts_S1x1024x128_S1024x128 : S1x1024x128.ShapeCasts S1024x128
  inb_S9x1024x128_S1x1024x128_1_0_0 : ∀ a, (![1, 0, 0] : Fin 3 → Nat) a + S1x1024x128.size a ≤ S9x1024x128.size a
  inb_S9x1024x128_S1x1024x128_2_0_0 : ∀ a, (![2, 0, 0] : Fin 3 → Nat) a + S1x1024x128.size a ≤ S9x1024x128.size a
  inb_S9x1024x128_S1x1024x128_3_0_0 : ∀ a, (![3, 0, 0] : Fin 3 → Nat) a + S1x1024x128.size a ≤ S9x1024x128.size a
  inb_S9x1024x128_S1x1024x128_4_0_0 : ∀ a, (![4, 0, 0] : Fin 3 → Nat) a + S1x1024x128.size a ≤ S9x1024x128.size a
  inb_S9x1024x128_S1x1024x128_5_0_0 : ∀ a, (![5, 0, 0] : Fin 3 → Nat) a + S1x1024x128.size a ≤ S9x1024x128.size a
  inb_S9x1024x128_S1x1024x128_6_0_0 : ∀ a, (![6, 0, 0] : Fin 3 → Nat) a + S1x1024x128.size a ≤ S9x1024x128.size a
  inb_S9x1024x128_S1x1024x128_7_0_0 : ∀ a, (![7, 0, 0] : Fin 3 → Nat) a + S1x1024x128.size a ≤ S9x1024x128.size a
  inb_S9x1024x128_S1x1024x128_8_0_0 : ∀ a, (![8, 0, 0] : Fin 3 → Nat) a + S1x1024x128.size a ≤ S9x1024x128.size a
  inb_S3x1024x128_S1x1024x128_0_0_0 : ∀ a, (![0, 0, 0] : Fin 3 → Nat) a + S1x1024x128.size a ≤ S3x1024x128.size a
  shapeCasts_S1024x128_S1x1024x128 : S1024x128.ShapeCasts S1x1024x128
  inb_S3x1024x128_S1x1024x128_1_0_0 : ∀ a, (![1, 0, 0] : Fin 3 → Nat) a + S1x1024x128.size a ≤ S3x1024x128.size a
  inb_S3x1024x128_S1x1024x128_2_0_0 : ∀ a, (![2, 0, 0] : Fin 3 → Nat) a + S1x1024x128.size a ≤ S3x1024x128.size a
  shapeCasts_S3x32768x128_S3x4194304 : S3x32768x128.ShapeCasts S3x4194304
  transposes_S3x4194304_S4194304x3_1_0 : S3x4194304.Transposes [1, 0] S4194304x3
  shapeCasts_S4194304x3_S4194304x1x3 : S4194304x3.ShapeCasts S4194304x1x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x1024x128.size a ≤ S9x32768x128.size a
  hwx0_0 : ∀ i : grid0.Coords, EltTy.bits .f32 = 32 ∨ (Rect.block (s := S9x32768x128) S9x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024x128.size a ≤ S3x32768x128.size a
  hwx0_1 : ∀ i : grid0.Coords, EltTy.bits .f32 = 32 ∨ (Rect.block (s := S3x32768x128) S3x1024x128.size (cc0_transform_1 i) (hinb0_1 i)).WholeWords (EltTy.packing .f32)

variable [Facts₀]

abbrev win0_0 : Pipeline.Window sig grid0 :=
  Pipeline.Window.ofSpec (Memref.whole main_v1) S9x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x9 : Shape := ⟨2, ![4194304, 9]⟩
abbrev S4194304x4 : Shape := ⟨2, ![4194304, 4]⟩
abbrev S4194304x2 : Shape := ⟨2, ![4194304, 2]⟩
abbrev S_ : Shape := ⟨0, ![]⟩
abbrev S4194304 : Shape := ⟨1, ![4194304]⟩
abbrev S4194304x1 : Shape := ⟨2, ![4194304, 1]⟩
abbrev S4194304x2x1 : Shape := ⟨3, ![4194304, 2, 1]⟩
abbrev S4194304x2x2 : Shape := ⟨3, ![4194304, 2, 2]⟩
abbrev S3x3 : Shape := ⟨2, ![3, 3]⟩
abbrev S4194304x3x3 : Shape := ⟨3, ![4194304, 3, 3]⟩
abbrev S1 : Shape := ⟨1, ![1]⟩
abbrev S2 : Shape := ⟨1, ![2]⟩
abbrev S4194304x3x1 : Shape := ⟨3, ![4194304, 3, 1]⟩
abbrev S4194304x1x3 : Shape := ⟨3, ![4194304, 1, 3]⟩

abbrev nBuf : Space → Nat
  | .hbm => 100
  | .vmem => 0
  | .smem => 0
  | _ => 0

abbrev bufTy : (tb : Table) → Fin (tcTables nBuf tb) → BufTy
  | .hbm, ⟨0, _⟩ => ⟨S4194304x9, .f32⟩
  | .hbm, ⟨1, _⟩ => ⟨S4194304x4, .f32⟩
  | .hbm, ⟨2, _⟩ => ⟨S4194304x2, .f32⟩
  | .hbm, ⟨3, _⟩ => ⟨S4194304x2, .f32⟩
  | .hbm, ⟨4, _⟩ => ⟨S4194304x2, .f32⟩
  | .hbm, ⟨5, _⟩ => ⟨S_, .f32⟩
  | .hbm, ⟨6, _⟩ => ⟨S4194304, .f32⟩
  | .hbm, ⟨7, _⟩ => ⟨S4194304x1, .f32⟩
  | .hbm, ⟨8, _⟩ => ⟨S4194304x1, .f32⟩
  | .hbm, ⟨9, _⟩ => ⟨S_, .f32⟩
  | .hbm, ⟨10, _⟩ => ⟨S4194304x1, .f32⟩
  | .hbm, ⟨11, _⟩ => ⟨S4194304x1, .f32⟩
  | .hbm, ⟨12, _⟩ => ⟨S4194304x2, .f32⟩
  | .hbm, ⟨13, _⟩ => ⟨S4194304x2, .f32⟩
  | .hbm, ⟨14, _⟩ => ⟨S4194304x2, .f32⟩
  | .hbm, ⟨15, _⟩ => ⟨S_, .f32⟩
  | .hbm, ⟨16, _⟩ => ⟨S4194304, .f32⟩
  | .hbm, ⟨17, _⟩ => ⟨S4194304x1, .f32⟩
  | .hbm, ⟨18, _⟩ => ⟨S4194304x2, .f32⟩
  | .hbm, ⟨19, _⟩ => ⟨S4194304x2, .f32⟩
  | .hbm, ⟨20, _⟩ => ⟨S4194304x2, .f32⟩
  | .hbm, ⟨21, _⟩ => ⟨S4194304x2, .f32⟩
  | .hbm, ⟨22, _⟩ => ⟨S_, .f32⟩
  | .hbm, ⟨23, _⟩ => ⟨S4194304, .f32⟩
  | .hbm, ⟨24, _⟩ => ⟨S4194304x1, .f32⟩
  | .hbm, ⟨25, _⟩ => ⟨S4194304x1, .f32⟩
  | .hbm, ⟨26, _⟩ => ⟨S_, .f32⟩
  | .hbm, ⟨27, _⟩ => ⟨S4194304x1, .f32⟩
  | .hbm, ⟨28, _⟩ => ⟨S4194304x1, .f32⟩
  | .hbm, ⟨29, _⟩ => ⟨S4194304x2, .f32⟩
  | .hbm, ⟨30, _⟩ => ⟨S4194304x2, .f32⟩
  | .hbm, ⟨31, _⟩ => ⟨S4194304x2x1, .f32⟩
  | .hbm, ⟨32, _⟩ => ⟨S4194304x2x1, .f32⟩
  | .hbm, ⟨33, _⟩ => ⟨S4194304x2x2, .f32⟩
  | .hbm, ⟨34, _⟩ => ⟨S4194304x4, .f32⟩
  | .hbm, ⟨35, _⟩ => ⟨S4194304x2, .f32⟩
  | .hbm, ⟨36, _⟩ => ⟨S4194304x2, .f32⟩
  | .hbm, ⟨37, _⟩ => ⟨S4194304x2, .f32⟩
  | .hbm, ⟨38, _⟩ => ⟨S_, .f32⟩
  | .hbm, ⟨39, _⟩ => ⟨S4194304, .f32⟩
  | .hbm, ⟨40, _⟩ => ⟨S4194304x1, .f32⟩
  | .hbm, ⟨41, _⟩ => ⟨S4194304x1, .f32⟩
  | .hbm, ⟨42, _⟩ => ⟨S_, .f32⟩
  | .hbm, ⟨43, _⟩ => ⟨S4194304x1, .f32⟩
  | .hbm, ⟨44, _⟩ => ⟨S4194304x1, .f32⟩
  | .hbm, ⟨45, _⟩ => ⟨S4194304x2, .f32⟩
  | .hbm, ⟨46, _⟩ => ⟨S4194304x2, .f32⟩
  | .hbm, ⟨47, _⟩ => ⟨S4194304x2, .f32⟩
  | .hbm, ⟨48, _⟩ => ⟨S_, .f32⟩
  | .hbm, ⟨49, _⟩ => ⟨S4194304, .f32⟩
  | .hbm, ⟨50, _⟩ => ⟨S4194304x1, .f32⟩
  | .hbm, ⟨51, _⟩ => ⟨S4194304x2, .f32⟩
  | .hbm, ⟨52, _⟩ => ⟨S4194304x2, .f32⟩
  | .hbm, ⟨53, _⟩ => ⟨S4194304x2, .f32⟩
  | .hbm, ⟨54, _⟩ => ⟨S4194304x2, .f32⟩
  | .hbm, ⟨55, _⟩ => ⟨S_, .f32⟩
  | .hbm, ⟨56, _⟩ => ⟨S4194304, .f32⟩
  | .hbm, ⟨57, _⟩ => ⟨S4194304x1, .f32⟩
  | .hbm, ⟨58, _⟩ => ⟨S4194304x1, .f32⟩
  | .hbm, ⟨59, _⟩ => ⟨S_, .f32⟩
  | .hbm, ⟨60, _⟩ => ⟨S4194304x1, .f32⟩
  | .hbm, ⟨61, _⟩ => ⟨S4194304x1, .f32⟩
  | .hbm, ⟨62, _⟩ => ⟨S4194304x2, .f32⟩
  | .hbm, ⟨63, _⟩ => ⟨S4194304x2, .f32⟩
  | .hbm, ⟨64, _⟩ => ⟨S4194304x2x1, .f32⟩
  | .hbm, ⟨65, _⟩ => ⟨S4194304x2x1, .f32⟩
  | .hbm, ⟨66, _⟩ => ⟨S4194304x2x2, .f32⟩
  | .hbm, ⟨67, _⟩ => ⟨S4194304x1, .f32⟩
  | .hbm, ⟨68, _⟩ => ⟨S4194304, .f32⟩
  | .hbm, ⟨69, _⟩ => ⟨S3x3, .i32⟩
  | .hbm, ⟨70, _⟩ => ⟨S3x3, .i32⟩
  | .hbm, ⟨71, _⟩ => ⟨S_, .i32⟩
  | .hbm, ⟨72, _⟩ => ⟨S3x3, .i32⟩
  | .hbm, ⟨73, _⟩ => ⟨S3x3, .i32⟩
  | .hbm, ⟨74, _⟩ => ⟨S3x3, .i1⟩
  | .hbm, ⟨75, _⟩ => ⟨S3x3, .f32⟩
  | .hbm, ⟨76, _⟩ => ⟨S4194304x3x3, .f32⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S4194304x3x3, .f32⟩
  | .hbm, ⟨83, _⟩ => ⟨S_, .i32⟩
  | .hbm, ⟨84, _⟩ => ⟨S1, .i32⟩
  | .hbm, ⟨85, _⟩ => ⟨S_, .i32⟩
  | .hbm, ⟨86, _⟩ => ⟨S1, .i32⟩
  | .hbm, ⟨87, _⟩ => ⟨S2, .i32⟩
  | .hbm, ⟨88, _⟩ => ⟨S4194304x3x3, .f32⟩
  | .hbm, ⟨89, _⟩ => ⟨S4194304x3x3, .f32⟩
  | .hbm, ⟨90, _⟩ => ⟨S_, .f32⟩
  | .hbm, ⟨91, _⟩ => ⟨S4194304x3x1, .f32⟩
  | .hbm, ⟨92, _⟩ => ⟨S_, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S2, .i32⟩
  | .hbm, ⟨97, _⟩ => ⟨S4194304x3x1, .f32⟩
  | .hbm, ⟨98, _⟩ => ⟨S4194304x3x1, .f32⟩
  | .hbm, ⟨99, _⟩ => ⟨S4194304x1x3, .f32⟩
  | _, _ => ⟨S4194304x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call2_v0 : Ref sig .tc := ⟨.hbm, 37, rfl⟩
abbrev main_call2_cst : Ref sig .tc := ⟨.hbm, 38, rfl⟩
abbrev main_call2_v1 : Ref sig .tc := ⟨.hbm, 39, rfl⟩
abbrev main_call2_v2 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call3_v0 : Ref sig .tc := ⟨.hbm, 54, rfl⟩
abbrev main_call3_cst : Ref sig .tc := ⟨.hbm, 55, rfl⟩
abbrev main_call3_v1 : Ref sig .tc := ⟨.hbm, 56, rfl⟩
abbrev main_call3_v2 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_5 : Ref sig .tc := ⟨.hbm, 77, rfl⟩
abbrev main_v53 : Ref sig .tc := ⟨.hbm, 78, rfl⟩
abbrev main_c_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_7 : Ref sig .tc := ⟨.hbm, 83, rfl⟩
abbrev main_v57 : Ref sig .tc := ⟨.hbm, 84, rfl⟩
abbrev main_c_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_c_10 : Ref sig .tc := ⟨.hbm, 92, rfl⟩
abbrev main_v63 : Ref sig .tc := ⟨.hbm, 93, rfl⟩
abbrev main_c_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  slices_S4194304x9_S4194304x4_0_0 : S4194304x9.Slices ![0, 0] S4194304x4
  slices_S4194304x4_S4194304x2_0_0 : S4194304x4.Slices ![0, 0] S4194304x2
  slices_S4194304x4_S4194304x2_0_2 : S4194304x4.Slices ![0, 2] S4194304x2
  reducesTo_S4194304x2_S4194304_d1 : S4194304x2.ReducesTo [1] S4194304
  h_S_ : 0 < S_.numel
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S4194304x1_S4194304x2_0_1 : S4194304x1.BroadcastsInDim S4194304x2 (![0, 1] : Fin 2 → Fin S4194304x2.rank)
  bcast_S4194304x2_S4194304x2x1_0_1 : S4194304x2.BroadcastsInDim S4194304x2x1 (![0, 1] : Fin 2 → Fin S4194304x2x1.rank)
  concatenates_S4194304x2x1_S4194304x2x1_S4194304x2x2_d2 : Shape.Concatenates [S4194304x2x1, S4194304x2x1] S4194304x2x2 2
  slices_S4194304x9_S4194304x4_0_4 : S4194304x9.Slices ![0, 4] S4194304x4
  slices_S4194304x9_S4194304x1_0_8 : S4194304x9.Slices ![0, 8] S4194304x1
  shapeCasts_S4194304x1_S4194304 : S4194304x1.ShapeCasts S4194304
  bcast_S_S3x3 : S_.BroadcastsInDim S3x3 (![] : Fin 0 → Fin S3x3.rank)
  bcast_S3x3_S4194304x3x3_1_2 : S3x3.BroadcastsInDim S4194304x3x3 (![1, 2] : Fin 2 → Fin S4194304x3x3.rank)
  bcast_S_S1 : S_.BroadcastsInDim S1 (![] : Fin 0 → Fin S1.rank)
  concatenates_S1_S1_S2_d0 : Shape.Concatenates [S1, S1] S2 0
  bcast_S_S4194304x3x1 : S_.BroadcastsInDim S4194304x3x1 (![] : Fin 0 → Fin S4194304x3x1.rank)
  shapeCasts_S4194304x3x1_S4194304x1x3 : S4194304x3x1.ShapeCasts S4194304x1x3
  scatter_S4194304x3x3_S2_S4194304x2x2_012_n_12_0_wf : ScatterDims.WF S4194304x3x3 S2 S4194304x2x2 [0, 1, 2] [] [1, 2] 0
  dot_S4194304x3x3_S4194304x3x3_S4194304x3x3_2_1_1_2_0_0_wf : DotDims.WF S4194304x3x3 S4194304x3x3 S4194304x3x3 [2] [1] [1] [2] [0] [0]
  scatter_S4194304x3x1_S2_S4194304_0_12_12_0_wf : ScatterDims.WF S4194304x3x1 S2 S4194304 [0] [1, 2] [1, 2] 0
  dot_S4194304x3x3_S4194304x3x1_S4194304x3x1_2_1_1_2_0_0_wf : DotDims.WF S4194304x3x3 S4194304x3x1 S4194304x3x1 [2] [1] [1] [2] [0] [0]

variable [Facts₀]

def scatter_S4194304x3x3_S2_S4194304x2x2_012_n_12_0 : ScatterDims S4194304x3x3 S2 S4194304x2x2 where
  updateWindowDims := [0, 1, 2]
  insertedWindowDims := []
  scatterDimsToOperandDims := [1, 2]
  indexVectorDim := 0
  wf := scatter_S4194304x3x3_S2_S4194304x2x2_012_n_12_0_wf
def dot_S4194304x3x3_S4194304x3x3_S4194304x3x3_2_1_1_2_0_0 : DotDims S4194304x3x3 S4194304x3x3 S4194304x3x3 where
  lhsContracting := [2]
  rhsContracting := [1]
  lhsNonContracting := [1]
  rhsNonContracting := [2]
  lhsBatch := [0]
  rhsBatch := [0]
  wf := dot_S4194304x3x3_S4194304x3x3_S4194304x3x3_2_1_1_2_0_0_wf
def scatter_S4194304x3x1_S2_S4194304_0_12_12_0 : ScatterDims S4194304x3x1 S2 S4194304 where
  updateWindowDims := [0]
  insertedWindowDims := [1, 2]
  scatterDimsToOperandDims := [1, 2]
  indexVectorDim := 0
  wf := scatter_S4194304x3x1_S2_S4194304_0_12_12_0_wf
def dot_S4194304x3x3_S4194304x3x1_S4194304x3x1_2_1_1_2_0_0 : DotDims S4194304x3x3 S4194304x3x1 S4194304x3x1 where
  lhsContracting := [2]
  rhsContracting := [1]
  lhsNonContracting := [1]
  rhsNonContracting := [2]
  lhsBatch := [0]
  rhsBatch := [0]
  wf := dot_S4194304x3x3_S4194304x3x1_S4194304x3x1_2_1_1_2_0_0_wf

class Facts : Prop extends Facts₀ where

variable [Facts]
-- ==== Proof.Spec.lean ====
/-
  The mathematics both programs compute, row by row, on the extended reals.

  A row of nine numbers f₀ … f₈ holds two pairs of plane vectors and a length: (f₀, f₁), (f₂, f₃) and
  (f₄, f₅), (f₆, f₇), and d = f₈. Each pair is orthonormalised by Gram–Schmidt: the first vector is divided by
  its norm (never less than a small floor), its multiple along the second is removed from the second, and
  the remainder is divided by its own floored norm. Only the second vector of each orthonormal pair, (g₁, g₂),
  reaches the result: with y = g(f₀ … f₃) and z = g(f₄ … f₇) the three results are
      d · z₁ · y₁,    d · z₂ · y₁,    d · y₂,
  the last column of the product of the two rotations (about the third axis by the second pair, about the
  first axis by the first pair) scaled by d.
-/
import Idealize.ShloMosaic.PureOps.Ideal
import Idealize.ShloMosaic.Lib.ValueIdx

noncomputable section

namespace Cert.Gram

open Idealize.ShloMosaic Idealize.ShloMosaic.ValueIdx

/-- The floor under every norm: the single-precision number nearest 10⁻¹², read exactly. -/
def floor : EReal := Ideal.ofBits .f32 0x2B8CBCCC#32

/-- The floored Euclidean norm of the plane vector (a, b). -/
def norm (a b : EReal) : EReal := max (Ideal.sqrt (a * a + b * b)) floor

/-- The first vector of the pair, normalised: its two coordinates. -/
def u1 (a b : EReal) : EReal := Ideal.div a (norm a b)
def u2 (a b : EReal) : EReal := Ideal.div b (norm a b)

/-- The component of (c, d) along the normalised (a, b). -/
def along (a b c d : EReal) : EReal := u1 a b * c + u2 a b * d

/-- (c, d) less that component: the two coordinates of the remainder. -/
def rest1 (a b c d : EReal) : EReal := c - u1 a b * along a b c d
def rest2 (a b c d : EReal) : EReal := d - u2 a b * along a b c d

/-- The remainder normalised: the second vector of the orthonormal pair. -/
def g1 (a b c d : EReal) : EReal := Ideal.div (rest1 a b c d) (norm (rest1 a b c d) (rest2 a b c d))
def g2 (a b c d : EReal) : EReal := Ideal.div (rest2 a b c d) (norm (rest1 a b c d) (rest2 a b c d))

/-- The three results of one row. -/
def row (f : Fin 9 → EReal) : Fin 3 → EReal
  | ⟨0, _⟩ => f 8 * g1 (f 4) (f 5) (f 6) (f 7) * g1 (f 0) (f 1) (f 2) (f 3)
  | ⟨1, _⟩ => f 8 * g2 (f 4) (f 5) (f 6) (f 7) * g1 (f 0) (f 1) (f 2) (f 3)
  | ⟨2, _⟩ => f 8 * g2 (f 0) (f 1) (f 2) (f 3)

/-- The whole result: entry (b, 0, j) is result j of row b of the argument. -/
def G (x : (⟨2, ![4194304, 9]⟩ : Shape).Idx → EReal) : (⟨3, ![4194304, 1, 3]⟩ : Shape).Idx → EReal :=
  fun i => row (fun k => x (ix2 (i 0) k)) (i 2)

end Cert.Gram

end
-- ==== Proof.LibFlatten.lean ====
/-
  Two layout steps read at an index written by coordinates. (1) The last two axes of an [a, b, c] array flattened into
  one axis of extent b · c, and the cast back: both keep the row-major position, so column m of the flat array is the
  pair (m / c, m % c), and the pair (j, k) is column j · c + k. (2) Three matrices with the same number of rows laid
  side by side: a column of the result lies in exactly one of the three blocks, at its own column less the widths of
  the blocks before it.
-/
import Idealize.ShloMosaic.Lib.Pipeline.Value
import Idealize.ShloMosaic.Lib.ValueIdx

namespace Idealize.ShloMosaic.ValueIdx

open Idealize.ShloMosaic

variable {α : Type}

/-! ## Flattening the last two axes, and back -/

/-- An [a, b, c] array cast to [a, n] with n = b · c reads, at (i, m), the operand at (i, j, k) whenever
    m = j · c + k: both have row-major position i · n + m. -/
theorem shapeCast_abc_an_apply {a b c n : ℕ} (x : (⟨3, ![a, b, c]⟩ : Shape).Idx → α)
    (h : (⟨3, ![a, b, c]⟩ : Shape).ShapeCasts ⟨2, ![a, n]⟩) (hn : n = b * c)
    (i : Fin a) (m : Fin n) (j : Fin b) (k : Fin c) (hm : m.val = j.val * c + k.val) :
    shapeCast ⟨2, ![a, n]⟩ x h (ix2 i m) = x (ix3 i j k) :=
  shapeCast_apply x h _ _ (by
    rw [Shape.rowMajor_val_three, Shape.rowMajor_val_two]
    show (i.val * b + j.val) * c + k.val = i.val * n + m.val
    rw [hm, hn, Nat.add_mul, Nat.mul_assoc, Nat.add_assoc])

/-- The same with the pair written out: column m of the flat array is (m / c, m % c). -/
theorem shapeCast_abc_an_eq {a b c n : ℕ} (x : (⟨3, ![a, b, c]⟩ : Shape).Idx → α)
    (h : (⟨3, ![a, b, c]⟩ : Shape).ShapeCasts ⟨2, ![a, n]⟩) (hn : n = b * c) (i : Fin a) (m : Fin n) :
    shapeCast ⟨2, ![a, n]⟩ x h (ix2 i m)
      = x (ix3 i ⟨m.val / c, Nat.div_lt_of_lt_mul (by rw [Nat.mul_comm]; exact lt_of_lt_of_eq m.isLt hn)⟩
          ⟨m.val % c, Nat.mod_lt _ (Nat.pos_of_ne_zero fun hc => by
            have hm := lt_of_lt_of_eq m.isLt hn
            rw [hc, Nat.mul_zero] at hm
            exact Nat.not_lt_zero _ hm)⟩) :=
  shapeCast_abc_an_apply x h hn i m _ _ (by
    show m.val = m.val / c * c + m.val % c
    rw [Nat.mul_comm, Nat.div_add_mod])

/-- An [a, n] array with n = b · c cast to [a, b, c] reads, at (i, j, k), the operand at (i, m) whenever
    m = j · c + k. -/
theorem shapeCast_an_abc_apply {a b c n : ℕ} (x : (⟨2, ![a, n]⟩ : Shape).Idx → α)
    (h : (⟨2, ![a, n]⟩ : Shape).ShapeCasts ⟨3, ![a, b, c]⟩) (hn : n = b * c)
    (i : Fin a) (j : Fin b) (k : Fin c) (m : Fin n) (hm : m.val = j.val * c + k.val) :
    shapeCast ⟨3, ![a, b, c]⟩ x h (ix3 i j k) = x (ix2 i m) :=
  shapeCast_apply x h _ _ (by
    rw [Shape.rowMajor_val_three, Shape.rowMajor_val_two]
    show i.val * n + m.val = (i.val * b + j.val) * c + k.val
    rw [hm, hn, Nat.add_mul, Nat.mul_assoc, Nat.add_assoc])

/-- The same with the column written out: the pair (j, k) is column j · c + k. -/
theorem shapeCast_an_abc_eq {a b c n : ℕ} (x : (⟨2, ![a, n]⟩ : Shape).Idx → α)
    (h : (⟨2, ![a, n]⟩ : Shape).ShapeCasts ⟨3, ![a, b, c]⟩) (hn : n = b * c) (i : Fin a) (j : Fin b) (k : Fin c) :
    shapeCast ⟨3, ![a, b, c]⟩ x h (ix3 i j k)
      = x (ix2 i ⟨j.val * c + k.val, by
          have hj := j.isLt; have hk := k.isLt
          calc j.val * c + k.val < j.val * c + c := Nat.add_lt_add_left hk _
            _ = (j.val + 1) * c := (Nat.succ_mul _ _).symm
            _ ≤ b * c := Nat.mul_le_mul_right _ hj
            _ = n := hn.symm⟩) :=
  shapeCast_an_abc_apply x h hn i j k _ rfl

/-! ## Three blocks side by side -/

section Three
variable {a n₁ n₂ n₃ m : ℕ} (x₁ : (⟨2, ![a, n₁]⟩ : Shape).Idx → α) (x₂ : (⟨2, ![a, n₂]⟩ : Shape).Idx → α)
  (x₃ : (⟨2, ![a, n₃]⟩ : Shape).Idx → α)
  (h : Shape.Concatenates [⟨2, ![a, n₁]⟩, ⟨2, ![a, n₂]⟩, ⟨2, ![a, n₃]⟩] ⟨2, ![a, m]⟩ 1)

/-- A column of the result that is column `c'` of the first block. -/
theorem concatenate3_cols_apply_fst (i : Fin a) (c : Fin m) (c' : Fin n₁) (hc : c'.val = c.val) :
    concatenate ⟨2, ![a, m]⟩ 1 [⟨⟨2, ![a, n₁]⟩, x₁⟩, ⟨⟨2, ![a, n₂]⟩, x₂⟩, ⟨⟨2, ![a, n₃]⟩, x₃⟩] h (ix2 i c) = x₁ (ix2 i c') :=
  concatenate_apply_piece 1 [⟨⟨2, ![a, n₁]⟩, x₁⟩, ⟨⟨2, ![a, n₂]⟩, x₂⟩, ⟨⟨2, ![a, n₃]⟩, x₃⟩] h (ix2 i c) 0 (by simp) _ x₁ rfl rfl 0 rfl (ix2 i c')
    (fun b hb => by
      match b with
      | ⟨0, _⟩ => rfl
      | ⟨1, _⟩ => exact absurd rfl hb)
    (by show 0 + c'.val = c.val; omega)

/-- A column of the result that is column `c'` of the second block: past the first block's width. -/
theorem concatenate3_cols_apply_snd (i : Fin a) (c : Fin m) (c' : Fin n₂) (hc : n₁ + c'.val = c.val) :
    concatenate ⟨2, ![a, m]⟩ 1 [⟨⟨2, ![a, n₁]⟩, x₁⟩, ⟨⟨2, ![a, n₂]⟩, x₂⟩, ⟨⟨2, ![a, n₃]⟩, x₃⟩] h (ix2 i c) = x₂ (ix2 i c') :=
  concatenate_apply_piece 1 [⟨⟨2, ![a, n₁]⟩, x₁⟩, ⟨⟨2, ![a, n₂]⟩, x₂⟩, ⟨⟨2, ![a, n₃]⟩, x₃⟩] h (ix2 i c) 1 (by simp) _ x₂ rfl rfl n₁ (by simp) (ix2 i c')
    (fun b hb => by
      match b with
      | ⟨0, _⟩ => rfl
      | ⟨1, _⟩ => exact absurd rfl hb)
    hc

/-- A column of the result that is column `c'` of the third block: past the first two blocks' widths. -/
theorem concatenate3_cols_apply_trd (i : Fin a) (c : Fin m) (c' : Fin n₃) (hc : n₁ + n₂ + c'.val = c.val) :
    concatenate ⟨2, ![a, m]⟩ 1 [⟨⟨2, ![a, n₁]⟩, x₁⟩, ⟨⟨2, ![a, n₂]⟩, x₂⟩, ⟨⟨2, ![a, n₃]⟩, x₃⟩] h (ix2 i c) = x₃ (ix2 i c') :=
  concatenate_apply_piece 1 [⟨⟨2, ![a, n₁]⟩, x₁⟩, ⟨⟨2, ![a, n₂]⟩, x₂⟩, ⟨⟨2, ![a, n₃]⟩, x₃⟩] h (ix2 i c) 2 (by simp) _ x₃ rfl rfl (n₁ + n₂) (by simp) (ix2 i c')
    (fun b hb => by
      match b with
      | ⟨0, _⟩ => rfl
      | ⟨1, _⟩ => exact absurd rfl hb)
    hc

end Three

end Idealize.ShloMosaic.ValueIdx
-- ==== Proof.LibLayout.lean ====
/-
  Three layout operations read at an index, at rank 3, with every index written by its coordinates. A value that
  depends on the first and last coordinates only is laid out along a middle axis of extent one and then repeated along
  it; a value that depends on the last two coordinates only is given a leading axis of extent one and then repeated
  along that. Reading the result at `(i, j, k)` reads the operand at `(i, k)`, respectively `(j, k)`: a cast keeps
  the row-major position, and a broadcast reads coordinate zero on an axis of extent one.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, c]` array cast to `[a, 1, c]` reads, at `(i, u, k)`, the operand at `(i, k)`: both have row-major
    position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.HostParts.lean ====
/-
  The layout steps around the kernel's region, read entry by entry.

  Before the region the argument [4194304, 9] is transposed and its long axis split into 32768 rows of 128
  lanes: entry (k, r, l) of the array the region reads is feature k of row r · 128 + l. After the region the
  result [3, 32768, 128] is flattened, transposed and given a unit middle axis: entry (b, 0, j) of the program's
  result is entry (j, b / 128, b % 128) of the array the region wrote.
-/
import proofs.«154047_j78185584656835_2_alg».proof.Proof.Gen.KernelIdeal.Frame
import proofs.«154047_j78185584656835_2_alg».proof.Proof.LibFlatten
import proofs.«154047_j78185584656835_2_alg».proof.Proof.LibLayout
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostParts

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The array the region reads is the argument transposed and split. -/
theorem entry_eq (c : Dev nD) :
    (V m c main_v1 : S9x32768x128.Idx → EReal)
      = shapeCast S9x32768x128 (transpose S9x4194304 [1, 0] (m ((c : Thread nD τ).loc main_arg0)) transposes_S4194304x9_S9x4194304_1_0)
          shapeCasts_S9x4194304_S9x32768x128 := by
  show StableHlo.after hostOps0 (fun b => m (c, b)) (Proc.devRef .tc main_v1) = _
  after_results
  rfl

/-- Entry (k, r, l) of it is feature k of row r · 128 + l. -/
theorem entry_apply (c : Dev nD) (k : Fin 9) (r : Fin 32768) (l : Fin 128) :
    (V m c main_v1 : S9x32768x128.Idx → EReal) (ix3 k r l)
      = (m ((c : Thread nD τ).loc main_arg0) : S4194304x9.Idx → EReal) (ix2 ⟨r.val * 128 + l.val, by omega⟩ k) := by
  rw [entry_eq]
  refine (shapeCast_an_abc_eq _ _ (by norm_num) k r l).trans ?_
  exact transpose_ix2_apply _ _ _ _

/-- The program's result is the array the region wrote, flattened, transposed and given a unit middle axis. -/
theorem tail_eq (c : Dev nD) :
    (Pipeline.afterTail₀ cfgs (dats m) 0 (V0 m) [hostOps1] c main_v5 : S4194304x1x3.Idx → EReal)
      = shapeCast S4194304x1x3
          (transpose S4194304x3 [1, 0]
            (shapeCast S3x4194304 ((dats m 0 c).arrAt 1 cfg0.N : S3x32768x128.Idx → EReal) shapeCasts_S3x32768x128_S3x4194304)
            transposes_S3x4194304_S4194304x3_1_0)
          shapeCasts_S4194304x3_S4194304x1x3 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v2)
      = (dats m 0 c).arrAt 1 cfg0.N :=
    Pipeline.withArrays_arr spec0 launch0.win.arr_inj c (V0 m c) (fun w => (dats m 0 c).arrAt w (cfgs 0).N) 1
  rw [e]
  rfl

/-- Entry (b, 0, j) of the program's result is entry (j, b / 128, b % 128) of the array the region wrote. -/
theorem tail_apply (c : Dev nD) (b : Fin 4194304) (u : Fin 1) (j : Fin 3) :
    (Pipeline.afterTail₀ cfgs (dats m) 0 (V0 m) [hostOps1] c main_v5 : S4194304x1x3.Idx → EReal) (ix3 b u j)
      = ((dats m 0 c).arrAt 1 cfg0.N : S3x32768x128.Idx → EReal)
          (ix3 j (⟨b.val / 128, by omega⟩ : Fin 32768) (⟨b.val % 128, Nat.mod_lt _ (by norm_num)⟩ : Fin 128)) := by
  rw [tail_eq]
  refine (shapeCast_ac_a1c_apply _ _ b u j).trans ?_
  refine (transpose_ix2_apply _ _ b j).trans ?_
  exact shapeCast_abc_an_eq _ _ (by norm_num) j b

end Cert.KernelIdeal.HostParts

end
-- ==== Proof.BodyValue.lean ====
/-
  What the kernel's body leaves in its output block, entry by entry.

  The body reads the nine feature planes of its input block (plane k, a 1024 × 128 tile), computes pointwise on
  them, and stores three result planes. Every operation is pointwise, so entry (j, r, l) of the output block is
  result j of the row whose nine numbers are the entries (k, r, l) of the input block, k = 0 … 8.
-/
import proofs.«154047_j78185584656835_2_alg».proof.Proof.Gen.KernelIdeal.Frame
import proofs.«154047_j78185584656835_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.BodyValue

open Cert.KernelIdeal Cert.KernelIdeal.Gen Idealize.ShloMosaic Idealize.ShloMosaic.ValueIdx Cert.Gram

/-- The output block as one function of the input block: entry (j, r, l) is result j of the row read at (·, r, l). -/
def block (x0 : Vec Ideal S9x1024x128 .f32) : Vec Ideal S3x1024x128 .f32 :=
  fun y => row (fun k => x0 (ix3 k (y 1) (y 2))) (y 0)

/-- A loaded plane with its unit axis dropped reads, at (r, l), the block at (k, r, l). -/
theorem plane (x0 : Vec Ideal S9x1024x128 .f32) (off : Fin 3 → Nat) (inb) (h) (k : Fin 9)
    (h0 : off 0 = k.val) (h1 : off 1 = 0) (h2 : off 2 = 0) (r : Fin 1024) (l : Fin 128) :
    shapeCast S1024x128 (View.ld (Val := Elt Ideal) (e' := .f32) x0 (Rect.unit (s := S9x1024x128) off S1x1024x128.size inb)) h (ix2 r l) = x0 (ix3 k r l) := by
  refine (shapeCast_1ab_ab_apply _ h r l).trans ?_
  show x0 _ = x0 _
  refine congrArg x0 (funext fun a => Fin.ext ?_)
  match a with
  | ⟨0, _⟩ => show off 0 + 1 * 0 = k.val; omega
  | ⟨1, _⟩ => show off 1 + 1 * r.val = r.val; omega
  | ⟨2, _⟩ => show off 2 + 1 * l.val = l.val; omega

/-! ## The nine planes the body loads -/

theorem plane0 (x0 : Vec Ideal S9x1024x128 .f32) (r : Fin 1024) (l : Fin 128) :
    k0_pay2 (View.ld x0 r0_0) (ix2 r l) = x0 (ix3 (0 : Fin 9) r l) :=
  plane x0 _ _ _ 0 rfl rfl rfl r l
theorem plane1 (x0 : Vec Ideal S9x1024x128 .f32) (r : Fin 1024) (l : Fin 128) :
    k0_pay3 (View.ld x0 r0_1) (ix2 r l) = x0 (ix3 (1 : Fin 9) r l) :=
  plane x0 _ _ _ 1 rfl rfl rfl r l
theorem plane2 (x0 : Vec Ideal S9x1024x128 .f32) (r : Fin 1024) (l : Fin 128) :
    k0_pay4 (View.ld x0 r0_2) (ix2 r l) = x0 (ix3 (2 : Fin 9) r l) :=
  plane x0 _ _ _ 2 rfl rfl rfl r l
theorem plane3 (x0 : Vec Ideal S9x1024x128 .f32) (r : Fin 1024) (l : Fin 128) :
    k0_pay5 (View.ld x0 r0_3) (ix2 r l) = x0 (ix3 (3 : Fin 9) r l) :=
  plane x0 _ _ _ 3 rfl rfl rfl r l
theorem plane4 (x0 : Vec Ideal S9x1024x128 .f32) (r : Fin 1024) (l : Fin 128) :
    k0_pay6 (View.ld x0 r0_4) (ix2 r l) = x0 (ix3 (4 : Fin 9) r l) :=
  plane x0 _ _ _ 4 rfl rfl rfl r l
theorem plane5 (x0 : Vec Ideal S9x1024x128 .f32) (r : Fin 1024) (l : Fin 128) :
    k0_pay7 (View.ld x0 r0_5) (ix2 r l) = x0 (ix3 (5 : Fin 9) r l) :=
  plane x0 _ _ _ 5 rfl rfl rfl r l
theorem plane6 (x0 : Vec Ideal S9x1024x128 .f32) (r : Fin 1024) (l : Fin 128) :
    k0_pay8 (View.ld x0 r0_6) (ix2 r l) = x0 (ix3 (6 : Fin 9) r l) :=
  plane x0 _ _ _ 6 rfl rfl rfl r l
theorem plane7 (x0 : Vec Ideal S9x1024x128 .f32) (r : Fin 1024) (l : Fin 128) :
    k0_pay9 (View.ld x0 r0_7) (ix2 r l) = x0 (ix3 (7 : Fin 9) r l) :=
  plane x0 _ _ _ 7 rfl rfl rfl r l
theorem plane8 (x0 : Vec Ideal S9x1024x128 .f32) (r : Fin 1024) (l : Fin 128) :
    k0_pay10 (View.ld x0 r0_8) (ix2 r l) = x0 (ix3 (8 : Fin 9) r l) :=
  plane x0 _ _ _ 8 rfl rfl rfl r l

/-! ## The three planes the body stores

Each stored plane is a product of the length plane with second Gram–Schmidt vectors, entry by entry; the stored
value's leading unit axis is dropped to read it. -/

section Stored

variable (x0 : Vec Ideal S9x1024x128 .f32) (u : Fin 1) (r : Fin 1024) (l : Fin 128)

/-- The first stored plane: d · z₁ · y₁. -/
theorem stored0 :
    k0_pay26 (k0_pay5 (View.ld x0 r0_3)) (k0_pay6 (View.ld x0 r0_4)) (k0_pay7 (View.ld x0 r0_5)) (k0_pay8 (View.ld x0 r0_6)) (k0_pay9 (View.ld x0 r0_7)) (k0_pay10 (View.ld x0 r0_8)) (k0_pay13 (View.ld x0 r0_0) (View.ld x0 r0_1)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (ix3 u r l)
      = block x0 (ix3 (0 : Fin 3) r l) := by
  unfold k0_pay26
  refine (shapeCast_ab_1ab_apply _ _ u r l).trans ?_
  show k0_pay10 (View.ld x0 r0_8) (ix2 r l)
        * g1 (k0_pay6 (View.ld x0 r0_4) (ix2 r l)) (k0_pay7 (View.ld x0 r0_5) (ix2 r l)) (k0_pay8 (View.ld x0 r0_6) (ix2 r l)) (k0_pay9 (View.ld x0 r0_7) (ix2 r l))
        * g1 (k0_pay2 (View.ld x0 r0_0) (ix2 r l)) (k0_pay3 (View.ld x0 r0_1) (ix2 r l)) (k0_pay4 (View.ld x0 r0_2) (ix2 r l)) (k0_pay5 (View.ld x0 r0_3) (ix2 r l))
      = row (fun k => x0 (ix3 k r l)) (0 : Fin 3)
  rw [plane0, plane1, plane2, plane3, plane4, plane5, plane6, plane7, plane8]
  rfl

/-- The second stored plane: d · z₂ · y₁. -/
theorem stored1 :
    k0_pay27 (k0_pay5 (View.ld x0 r0_3)) (k0_pay6 (View.ld x0 r0_4)) (k0_pay7 (View.ld x0 r0_5)) (k0_pay8 (View.ld x0 r0_6)) (k0_pay9 (View.ld x0 r0_7)) (k0_pay10 (View.ld x0 r0_8)) (k0_pay13 (View.ld x0 r0_0) (View.ld x0 r0_1)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (ix3 u r l)
      = block x0 (ix3 (1 : Fin 3) r l) := by
  unfold k0_pay27
  refine (shapeCast_ab_1ab_apply _ _ u r l).trans ?_
  show k0_pay10 (View.ld x0 r0_8) (ix2 r l)
        * g2 (k0_pay6 (View.ld x0 r0_4) (ix2 r l)) (k0_pay7 (View.ld x0 r0_5) (ix2 r l)) (k0_pay8 (View.ld x0 r0_6) (ix2 r l)) (k0_pay9 (View.ld x0 r0_7) (ix2 r l))
        * g1 (k0_pay2 (View.ld x0 r0_0) (ix2 r l)) (k0_pay3 (View.ld x0 r0_1) (ix2 r l)) (k0_pay4 (View.ld x0 r0_2) (ix2 r l)) (k0_pay5 (View.ld x0 r0_3) (ix2 r l))
      = row (fun k => x0 (ix3 k r l)) (1 : Fin 3)
  rw [plane0, plane1, plane2, plane3, plane4, plane5, plane6, plane7, plane8]
  rfl

/-- The third stored plane: d · y₂. -/
theorem stored2 :
    k0_pay1 (k0_pay28 (k0_pay5 (View.ld x0 r0_3)) (k0_pay10 (View.ld x0 r0_8)) (k0_pay13 (View.ld x0 r0_0) (View.ld x0 r0_1)) (k0_pay14 (View.ld x0 r0_0) (View.ld x0 r0_1) (View.ld x0 r0_2) (View.ld x0 r0_3)) (k0_pay15 (View.ld x0 r0_0) (View.ld x0 r0_1) (View.ld x0 r0_2) (View.ld x0 r0_3))) (ix3 u r l)
      = block x0 (ix3 (2 : Fin 3) r l) := by
  unfold k0_pay1
  refine (shapeCast_ab_1ab_apply _ _ u r l).trans ?_
  show k0_pay10 (View.ld x0 r0_8) (ix2 r l)
        * g2 (k0_pay2 (View.ld x0 r0_0) (ix2 r l)) (k0_pay3 (View.ld x0 r0_1) (ix2 r l)) (k0_pay4 (View.ld x0 r0_2) (ix2 r l)) (k0_pay5 (View.ld x0 r0_3) (ix2 r l))
      = row (fun k => x0 (ix3 k r l)) (2 : Fin 3)
  rw [plane0, plane1, plane2, plane3, plane8]
  rfl

end Stored

/-! ## The output block is one function of the input block -/

/-- The three stores tile the output block, and each stored plane is its plane of `block`. -/
theorem out_eq (x0 : Vec Ideal S9x1024x128 .f32) : out0_1 x0 = block x0 := by
  funext y
  unfold out0_1
  refine View.canon_apply_of_pieces (block x0) _ ?_ y (cover0_1 _ _ _ y)
  intro p hp x
  simp only [List.mem_cons, List.mem_nil_iff, or_false] at hp
  rcases hp with rfl | rfl | rfl
  · obtain ⟨u, r, l, rfl⟩ : ∃ (u : Fin 1) (r : Fin 1024) (l : Fin 128), x = ix3 u r l := ⟨x 0, x 1, x 2, eq_ix3 x⟩
    refine (stored2 x0 u r l).trans (congrArg (block x0) (funext fun a => Fin.ext ?_))
    match a with
    | ⟨0, _⟩ => show 2 = 2 + 1 * u.val; omega
    | ⟨1, _⟩ => show r.val = 0 + 1 * r.val; omega
    | ⟨2, _⟩ => show l.val = 0 + 1 * l.val; omega
  · obtain ⟨u, r, l, rfl⟩ : ∃ (u : Fin 1) (r : Fin 1024) (l : Fin 128), x = ix3 u r l := ⟨x 0, x 1, x 2, eq_ix3 x⟩
    refine (stored1 x0 u r l).trans (congrArg (block x0) (funext fun a => Fin.ext ?_))
    match a with
    | ⟨0, _⟩ => show 1 = 1 + 1 * u.val; omega
    | ⟨1, _⟩ => show r.val = 0 + 1 * r.val; omega
    | ⟨2, _⟩ => show l.val = 0 + 1 * l.val; omega
  · obtain ⟨u, r, l, rfl⟩ : ∃ (u : Fin 1) (r : Fin 1024) (l : Fin 128), x = ix3 u r l := ⟨x 0, x 1, x 2, eq_ix3 x⟩
    refine (stored0 x0 u r l).trans (congrArg (block x0) (funext fun a => Fin.ext ?_))
    match a with
    | ⟨0, _⟩ => show 0 = 0 + 1 * u.val; omega
    | ⟨1, _⟩ => show r.val = 0 + 1 * r.val; omega
    | ⟨2, _⟩ => show l.val = 0 + 1 * l.val; omega

end Cert.KernelIdeal.BodyValue

end
-- ==== Proof.ArrayValue.lean ====
/-
  From the blocks to the whole array.

  Grid point t reads rows t · 1024 … t · 1024 + 1023 of the input array (all nine planes) and writes the same rows
  of the output array (all three planes). The 32 points' blocks tile the output, so after the run the output array
  is one function of the input array: entry (j, r, l) is result j of the row read at (·, r, l).
-/
import proofs.«154047_j78185584656835_2_alg».proof.Proof.Gen.KernelIdeal.Frame
import proofs.«154047_j78185584656835_2_alg».proof.Proof.BodyValue
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.BodyValue Idealize.ShloMosaic Idealize.ShloMosaic.TcCoe
open Idealize.ShloMosaic.ValueIdx Idealize.SL.Sem Cert.Gram

variable (m : (ℓ : Loc nD τ sig) → Buf (Elt Ideal) ℓ)

/-- The output array as one function of the input array. -/
def whole (X : Vec Ideal S9x32768x128 .f32) : Vec Ideal S3x32768x128 .f32 :=
  fun y => row (fun k => X (ix3 k (y 1) (y 2))) (y 0)

/-- The two windows' block indices at every grid point: plane block 0, row block t, lane block 0. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- The input block of point t at (k, r, l) is the input array at (k, t · 1024 + r, l). -/
theorem iblk_apply (c : Dev nD) (t : Fin cfg0.N) (k : Fin 9) (r : Fin 1024) (l : Fin 128) :
    iblk m c 0 t (ix3 k r l)
      = (V m c main_v1 : S9x32768x128.Idx → EReal) (ix3 k ⟨t.val * 1024 + r.val, by have ht : t.val < 32 := t.isLt; omega⟩ l) := by
  obtain ⟨e0, e1, e2, -, -, -⟩ := idx_facts t
  show V m c main_v1 (((cfg0.win 0).blk t).view.emb (ix3 k r l)) = V m c main_v1 _
  refine congrArg (V m c main_v1) (funext fun a => Fin.ext ?_)
  match a with
  | ⟨0, _⟩ => show win0_0.index t (0 : Fin 3) * 9 + 1 * k.val = k.val; omega
  | ⟨1, _⟩ => show win0_0.index t (1 : Fin 3) * 1024 + 1 * r.val = t.val * 1024 + r.val; omega
  | ⟨2, _⟩ => show win0_0.index t (2 : Fin 3) * 128 + 1 * l.val = l.val; omega

/-- What point t writes back is block t of `whole` of the input array. -/
theorem flushed_eq (c : Dev nD) (t : Fin cfg0.N) :
    (dats m 0 c).flushed 1 t = ((cfg0.win 1).blk t).view.read (Elt Ideal) (whole (V m c main_v1)) := by
  show (cfg0.win 1).cut (grid0.coords t) ((dats m 0 c).after 1 t) = _
  rw [after0_1, out_eq]
  obtain ⟨-, -, -, e3, e4, e5⟩ := idx_facts t
  funext y
  obtain ⟨j, r, l, rfl⟩ : ∃ (j : Fin 3) (r : Fin 1024) (l : Fin 128), y = ix3 j r l := ⟨y 0, y 1, y 2, eq_ix3 y⟩
  have ht : t.val < 32 := t.isLt
  have hemb : ((cfg0.win 1).blk t).view.emb (ix3 j r l) = ix3 j (⟨t.val * 1024 + r.val, by omega⟩ : Fin 32768) l := by
    funext a; apply Fin.ext
    match a with
    | ⟨0, _⟩ => show win0_1.index t (0 : Fin 3) * 3 + 1 * j.val = j.val; omega
    | ⟨1, _⟩ => show win0_1.index t (1 : Fin 3) * 1024 + 1 * r.val = t.val * 1024 + r.val; omega
    | ⟨2, _⟩ => show win0_1.index t (2 : Fin 3) * 128 + 1 * l.val = l.val; omega
  show block (iblk m c 0 t) (ix3 j r l) = whole (V m c main_v1) (((cfg0.win 1).blk t).view.emb (ix3 j r l))
  rw [hemb]
  show row (fun k => iblk m c 0 t (ix3 k r l)) j = row (fun k => (V m c main_v1 : S9x32768x128.Idx → EReal) (ix3 k (⟨t.val * 1024 + r.val, by omega⟩ : Fin 32768) l)) j
  exact congrArg (fun f => row f j) (funext fun k => iblk_apply m c t k r l)

/-- An index of the output array is in point t's block iff each coordinate is in the block's range. -/
theorem mem_blk (t : Fin cfg0.N) (i : S3x32768x128.Idx) :
    i ∈ ((cfg0.win 1).blk t).view.set ↔ ∀ a : Fin 3, win0_1.index t a * S3x1024x128.size a ≤ (i a).val ∧ (i a).val < win0_1.index t a * S3x1024x128.size a + S3x1024x128.size a := by
  show i ∈ ((View.whole main_v2).slice (win0_1.rect t)).set ↔ _
  rw [View.set_slice_whole, Rect.mem_set_unit]
  exact Iff.rfl

/-- Every entry of the output array is in the block of the point that holds its row. -/
theorem cover (i : S3x32768x128.Idx) : ∃ t : Fin cfg0.N, (cfg0.win 1).flush t = true ∧ i ∈ ((cfg0.win 1).blk t).view.set := by
  have h0 : (i 0).val < 3 := (i 0).isLt
  have h1 : (i 1).val < 32768 := (i 1).isLt
  have h2 : (i 2).val < 128 := (i 2).isLt
  obtain ⟨t, ht⟩ : ∃ t : Fin cfg0.N, t.val = (i 1).val / 1024 := ⟨⟨(i 1).val / 1024, by show (i 1).val / 1024 < 32; omega⟩, rfl⟩
  obtain ⟨-, -, -, e3, e4, e5⟩ := idx_facts t
  refine ⟨t, flush0_1 t, ?_⟩
  rw [mem_blk]
  intro a
  match a with
  | ⟨0, _⟩ => show win0_1.index t (0 : Fin 3) * 3 ≤ (i 0).val ∧ (i 0).val < win0_1.index t (0 : Fin 3) * 3 + 3; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 128 ≤ (i 2).val ∧ (i 2).val < win0_1.index t (2 : Fin 3) * 128 + 128; omega

/-- The output array after the run. -/
theorem final (c : Dev nD) : (dats m 0 c).arrAt 1 cfg0.N = whole (V m c main_v1) :=
  (dats m 0 c).arrAt_eq_of_cover 1 (whole (V m c main_v1)) (fun t _ => flushed_eq m c t) cover

end Cert.KernelIdeal.ArrayValue

end
-- ==== Proof.KernelValue.lean ====
/-
  The kernel's program computes the row results.

  Reading the run from the outside in: the program's result at (b, 0, j) is the region's output array at
  (j, b / 128, b % 128); that array is the row function of the region's input array; and the input array at
  (k, b / 128, b % 128) is feature k of row (b / 128) · 128 + b % 128 = b of the argument.
-/
import proofs.«154047_j78185584656835_2_alg».proof.Proof.Gen.KernelIdeal.Frame
import proofs.«154047_j78185584656835_2_alg».proof.Proof.Spec
import proofs.«154047_j78185584656835_2_alg».proof.Proof.HostParts
import proofs.«154047_j78185584656835_2_alg».proof.Proof.ArrayValue

set_option maxRecDepth 16384

noncomputable section

namespace Cert.KernelIdeal.KernelValue

open Cert.KernelIdeal Cert.KernelIdeal.Gen Cert.KernelIdeal.HostParts Cert.KernelIdeal.ArrayValue
open Idealize.ShloMosaic Idealize.ShloMosaic.TcCoe Idealize.ShloMosaic.ValueIdx Idealize.SL.Sem Cert.Gram

variable (m : (ℓ : Loc nD τ sig) → Buf (Elt Ideal) ℓ) (ρ : Dev nD → PrngReg)

/-- The program's result, as the run's post names it, is the row function of the argument. -/
theorem result_eq (c : Dev nD) :
    (Pipeline.afterTail₀ cfgs (dats m) 0 (V0 m) [hostOps1] c main_v5 : S4194304x1x3.Idx → EReal)
      = G (m ((c : Thread nD τ).loc main_arg0)) := by
  funext i
  obtain ⟨b, u, j, rfl⟩ : ∃ (b : Fin 4194304) (u : Fin 1) (j : Fin 3), i = ix3 b u j := ⟨i 0, i 1, i 2, eq_ix3 i⟩
  rw [tail_apply, final]
  show row (fun k => (V m c main_v1 : S9x32768x128.Idx → EReal)
        (ix3 k (⟨b.val / 128, by omega⟩ : Fin 32768) (⟨b.val % 128, Nat.mod_lt _ (by norm_num)⟩ : Fin 128))) j
      = row (fun k => (m ((c : Thread nD τ).loc main_arg0) : S4194304x9.Idx → EReal) (ix2 b k)) j
  refine congrArg (fun f => row f j) (funext fun k => ?_)
  rw [entry_apply]
  refine congrArg _ (funext fun a => Fin.ext ?_)
  match a with
  | ⟨0, _⟩ => show b.val / 128 * 128 + b.val % 128 = b.val; omega
  | ⟨1, _⟩ => rfl

/-- The kernel's program runs, ends with its result at the row function of the argument, and leaves the argument
    as it was. -/
theorem run : θ_run defs (onTc (τ := τ) (main (F := Ideal))) ⟨m, fun _ => 0, ρ⟩ (fun r => ∀ c : Dev nD,
      r.2.mem ((c.tc : Thread nD τ).loc main_v5) = G (m ((c.tc : Thread nD τ).loc main_arg0))
      ∧ r.2.mem ((c.tc : Thread nD τ).loc main_arg0) = m ((c.tc : Thread nD τ).loc main_arg0)) :=
  (θ_run defs _ _).mono (fun _ h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c)⟩)
    (run_main m ρ)

end Cert.KernelIdeal.KernelValue

end
-- ==== Proof.LibScatterSet.lean ====
/-
  The host scatter whose body returns the update (an array SET at computed positions), read at one
  element of the result.

  `Host.scatter d f x idx upd` is a left fold over the update indices in row-major order: update
  index `j` replaces the element at `i` when `d.resultIdx? j idx = some i` and is dropped when that
  is `none`. For `f = fun _ b => b` the replaced element is the update's own. This file names one step
  of that fold, follows the fold over an arbitrary list of update numbers, and concludes the two
  facts a reader of one element needs:

  * `scatter_set_hit`: an element that exactly one update index lands on holds that update's element;
  * `scatter_set_miss`: an element no update index lands on keeps the operand's element.

  Nothing here depends on the shapes or on the dimension numbers: both are statements about the fold.
-/
import Idealize.ShloMosaic.PureOps.ShapeOps

namespace Idealize.ShloMosaic.LibScatterSet

open Idealize.ShloMosaic

variable {α : Type} {s si u : Shape} {w : Nat}

/-- One step of the fold of a scatter whose body returns the update: update number `n` (row-major)
    overwrites the accumulated array `r` at the index it lands on, and leaves `r` alone when it
    lands outside the operand. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter whose body returns the update is the left fold of `step` over all update numbers. -/
theorem scatter_eq_foldl (d : ScatterDims s si u) (x : s.Idx → α) (idx : IVec si w) (upd : u.Idx → α) :
    Host.scatter d (fun _ b => b) x idx upd = (List.finRange u.numel).foldl (step d idx upd) x := rfl

/-- A step whose update lands on `i` leaves that update's element at `i`. -/
theorem step_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  simp only [step, h, if_true]

/-- A step whose update does not land on `i` leaves the accumulated element at `i` unchanged. -/
theorem step_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  cases hres : d.resultIdx? (u.rowMajor.symm n) idx with
  | none => rfl
  | some i0 =>
    have hne : i ≠ i0 := fun hi => h (by rw [hres, hi])
    simp only [if_neg hne]

/-- Folding over a list of update numbers none of which lands on `i` leaves the element at `i`
    unchanged. -/
theorem foldl_miss (d : ScatterDims s si u) (idx : IVec si w) (upd : u.Idx → α) (i : s.Idx)
    (l : List (Fin u.numel)) (h : ∀ n ∈ l, d.resultIdx? (u.rowMajor.symm n) idx ≠ some i)
    (x : s.Idx → α) : l.foldl (step d idx upd) x i = x i := by
  induction l generalizing x with
  | nil => rfl
  | cons n l ih =>
    rw [List.foldl_cons, ih (fun m hm => h m (List.mem_cons_of_mem n hm)),
      step_of_ne d idx upd x n i (h n List.mem_cons_self)]

/-- Folding over a list of update numbers that contains the number of `j`, where `j` lands on `i`
    and every listed update that lands on `i` is `j`, leaves `upd j` at `i`: the steps before `j`'s
    are overwritten by it, and the steps after it either are `j`'s again or land elsewhere. -/
theorem foldl_hit (d : ScatterDims s si u) (idx : IVec si w) (upd : u.Idx → α) (i : s.Idx) (j : u.Idx)
    (hj : d.resultIdx? j idx = some i) (l : List (Fin u.numel))
    (huniq : ∀ n ∈ l, d.resultIdx? (u.rowMajor.symm n) idx = some i → u.rowMajor.symm n = j)
    (hmem : u.rowMajor j ∈ l) (x : s.Idx → α) : l.foldl (step d idx upd) x i = upd j := by
  induction l generalizing x with
  | nil => exact absurd hmem List.not_mem_nil
  | cons n l ih =>
    rw [List.foldl_cons]
    by_cases hl : u.rowMajor j ∈ l
    · exact ih (fun m hm => huniq m (List.mem_cons_of_mem n hm)) hl _
    · have hn : n = u.rowMajor j := by
        rcases List.mem_cons.1 hmem with h | h
        · exact h.symm
        · exact absurd h hl
      have hsymm : u.rowMajor.symm n = j := by rw [hn, Equiv.symm_apply_apply]
      have hrest : ∀ m ∈ l, d.resultIdx? (u.rowMajor.symm m) idx ≠ some i := by
        intro m hm hres
        have hmj : u.rowMajor.symm m = j := huniq m (List.mem_cons_of_mem n hm) hres
        apply hl
        rw [← hmj, Equiv.apply_symm_apply]
        exact hm
      rw [foldl_miss d idx upd i l hrest, step_of_eq d idx upd x n i (by rw [hsymm]; exact hj), hsymm]

/-- HIT. If update index `j` lands on `i` and is the only update index that does, the scatter whose
    body returns the update holds `upd j` at `i`. -/
theorem scatter_set_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  rw [scatter_eq_foldl]
  exact foldl_hit d idx upd i j hj _ (fun n _ hn => huniq _ hn) (List.mem_finRange _) x

/-- MISS. If no update index lands on `i`, the scatter whose body returns the update keeps the
    operand's element at `i`. -/
theorem scatter_set_miss (d : ScatterDims s si u) (x : s.Idx → α) (idx : IVec si w) (upd : u.Idx → α)
    (i : s.Idx) (hnone : ∀ j, d.resultIdx? j idx ≠ some i) :
    Host.scatter d (fun _ b => b) x idx upd i = x i := by
  rw [scatter_eq_foldl]
  exact foldl_miss d idx upd i _ (fun n _ => hnone _) x

/-- WHERE AN UPDATE LANDS, by coordinates. Update index `j` lands on `i` exactly when, on every operand
    axis, `i`'s coordinate is the window's start plus the window coordinate (as integers): the sum is
    then inside the operand on every axis, which is the condition under which the update is kept. -/
theorem resultIdx?_eq_some_iff (d : ScatterDims s si u) (j : u.Idx) (idx : IVec si w) (i : s.Idx) :
    d.resultIdx? j idx = some i ↔ ∀ a, ((i a).val : Int) = d.start j idx a + d.window j a := by
  unfold ScatterDims.resultIdx?
  split
  · rename_i h
    constructor
    · intro he a
      have hi := Option.some.inj he
      have ha := h a
      rw [← hi]
      show ((d.start j idx a + d.window j a).toNat : Int) = _
      omega
    · intro hi
      congr 1
      funext a
      apply Fin.ext
      have ha := hi a
      show (d.start j idx a + d.window j a).toNat = (i a).val
      omega
  · rename_i h
    constructor
    · intro he
      cases he
    · intro hi
      exfalso
      apply h
      intro a
      have ha := hi a
      have hlt := (i a).isLt
      omega

end Idealize.ShloMosaic.LibScatterSet
-- ==== Proof.RefScatter.lean ====
/-
  The reference program's scatters, read at one element.

  The program sets two 2×2 blocks and one column of per-batch 3×3 and 3×1 arrays at literal positions.
  Each is a scatter over ONE scatter index — a pair of 32-bit words (s₀, s₁), read signed — whose body
  returns the update:

  * over the 3×3 operand with 2×2 updates, update (b, p', q') lands on (b, s₀ + p', s₁ + q');
  * over the 3×1 operand with one update per batch, update (b) lands on (b, s₀, s₁).

  Distinct updates land on distinct elements, so an element of the result is the one update that lands
  on it, or the operand's element when none does. The file evaluates the window start and the window
  coordinate of each record axis by axis, characterises where an update lands (`lands33`, `lands31`),
  and concludes the element of the result for arbitrary index words (`scatter33_hit` / `scatter33_miss`,
  `scatter31_hit` / `scatter31_miss`) and at the program's three literal positions (0, 0), (1, 1) and
  (2, 0) (`scatter33_at_00`, `scatter33_at_11`, `scatter31_at_20`, and one statement per literal
  coordinate pair after each). The batch extent is never enumerated: it only appears as a bound.
-/
import proofs.«154047_j78185584656835_2_alg».proof.ReferenceIdeal
import proofs.«154047_j78185584656835_2_alg».proof.Proof.LibScatterSet
import Idealize.ShloMosaic.Lib.ValueIdx

namespace Cert.ReferenceIdeal.RefScatter

open Idealize.ShloMosaic Idealize.ShloMosaic.ValueIdx Idealize.ShloMosaic.LibScatterSet
open Cert.ReferenceIdeal

variable [Facts₀] {α : Type}

local notation "d33" => scatter_S4194304x3x3_S2_S4194304x2x2_012_n_12_0
local notation "d31" => scatter_S4194304x3x1_S2_S4194304_0_12_12_0

/-! ## The 3×3 record, axis by axis: no start on the batch axis, the two index words on the others; the
    window coordinate is the update's own coordinate on every axis -/

/-- The batch axis is not a scattered axis: its window starts at 0. -/
theorem start33_0 (j : S4194304x2x2.Idx) (idx : IVec S2 32) : ScatterDims.start d33 j idx ⟨0, by decide⟩ = 0 := rfl

/-- On operand axis 1 the window starts at index word 0, read signed. -/
theorem start33_1 (j : S4194304x2x2.Idx) (idx : IVec S2 32) :
    ScatterDims.start d33 j idx ⟨1, by decide⟩ = (idx (ix1 0)).toInt := by
  have hm : (⟨1, by decide⟩ : Fin S4194304x3x3.rank) ∈ ScatterDims.scatterDimsToOperandDims d33 := by
    show _ ∈ ([1, 2] : List (Fin 3))
    decide
  unfold ScatterDims.start
  rw [dif_pos hm]
  congr 2
  funext c
  match c with
  | ⟨0, _⟩ => rfl

/-- On operand axis 2 the window starts at index word 1, read signed. -/
theorem start33_2 (j : S4194304x2x2.Idx) (idx : IVec S2 32) :
    ScatterDims.start d33 j idx ⟨2, by decide⟩ = (idx (ix1 1)).toInt := by
  have hm : (⟨2, by decide⟩ : Fin S4194304x3x3.rank) ∈ ScatterDims.scatterDimsToOperandDims d33 := by
    show _ ∈ ([1, 2] : List (Fin 3))
    decide
  unfold ScatterDims.start
  rw [dif_pos hm]
  congr 2
  funext c
  match c with
  | ⟨0, _⟩ => rfl

/-- On operand axis 0 the window coordinate is the update's coordinate on its axis 0. -/
theorem window33_0 (j : S4194304x2x2.Idx) : ScatterDims.window d33 j ⟨0, by decide⟩ = (j ⟨0, by decide⟩).val := rfl

/-- On operand axis 1 the window coordinate is the update's coordinate on its axis 1. -/
theorem window33_1 (j : S4194304x2x2.Idx) : ScatterDims.window d33 j ⟨1, by decide⟩ = (j ⟨1, by decide⟩).val := rfl

/-- On operand axis 2 the window coordinate is the update's coordinate on its axis 2. -/
theorem window33_2 (j : S4194304x2x2.Idx) : ScatterDims.window d33 j ⟨2, by decide⟩ = (j ⟨2, by decide⟩).val := rfl

/-- WHERE A 2×2 UPDATE LANDS: update (b', p', q') lands on (b, p, q) exactly when b = b', p = s₀ + p' and
    q = s₁ + q', for (s₀, s₁) the two index words read signed. -/
theorem lands33 (idx : IVec S2 32) (b' : Fin 4194304) (p' q' : Fin 2) (b : Fin 4194304) (p q : Fin 3) :
    ScatterDims.resultIdx? d33 (ix3 b' p' q') idx = some (ix3 b p q) ↔
      b.val = b'.val ∧ (p.val : Int) = (idx (ix1 0)).toInt + (p'.val : Int) ∧
        (q.val : Int) = (idx (ix1 1)).toInt + (q'.val : Int) := by
  rw [resultIdx?_eq_some_iff]
  constructor
  · intro h
    have h0 := h ⟨0, by decide⟩
    have h1 := h ⟨1, by decide⟩
    have h2 := h ⟨2, by decide⟩
    rw [start33_0, window33_0] at h0
    rw [start33_1, window33_1] at h1
    rw [start33_2, window33_2] at h2
    have h0' : (b.val : Int) = 0 + (b'.val : Int) := h0
    exact ⟨by omega, h1, h2⟩
  · rintro ⟨h0, h1, h2⟩ a
    obtain ⟨k, hk⟩ := a
    have hk3 : k < 3 := hk
    interval_cases k
    · rw [start33_0, window33_0]
      show (b.val : Int) = 0 + (b'.val : Int)
      omega
    · rw [start33_1, window33_1]
      exact h1
    · rw [start33_2, window33_2]
      exact h2

/-- HIT, 3×3. An element (b, p, q) with p = s₀ + p' and q = s₁ + q' for a window position (p', q') holds
    the update's element at (b, p', q'): that update lands there, and an update that lands there has
    the same batch and the same window position. -/
theorem scatter33_hit (x : S4194304x3x3.Idx → α) (idx : IVec S2 32) (upd : S4194304x2x2.Idx → α)
    (b : Fin 4194304) (p q : Fin 3) (p' q' : Fin 2)
    (hp : (p.val : Int) = (idx (ix1 0)).toInt + (p'.val : Int))
    (hq : (q.val : Int) = (idx (ix1 1)).toInt + (q'.val : Int)) :
    Host.scatter d33 (fun _ v => v) x idx upd (ix3 b p q) = upd (ix3 b p' q') := by
  refine scatter_set_hit d33 x idx upd (ix3 b p q) (ix3 b p' q') ?_ ?_
  · exact (lands33 idx b p' q' b p q).2 ⟨rfl, hp, hq⟩
  · intro j' hj'
    obtain ⟨b'', p'', q'', rfl⟩ : ∃ (b'' : Fin 4194304) (p'' q'' : Fin 2), j' = ix3 b'' p'' q'' :=
      ⟨_, _, _, eq_ix3 j'⟩
    obtain ⟨e0, e1, e2⟩ := (lands33 idx b'' p'' q'' b p q).1 hj'
    have hb : b'' = b := Fin.ext e0.symm
    have hp' : p'' = p' := Fin.ext (by omega)
    have hq' : q'' = q' := Fin.ext (by omega)
    rw [hb, hp', hq']

/-- MISS, 3×3. An element (b, p, q) that is s₀ + p', s₁ + q' for no window position (p', q') keeps the
    operand's element. -/
theorem scatter33_miss (x : S4194304x3x3.Idx → α) (idx : IVec S2 32) (upd : S4194304x2x2.Idx → α)
    (b : Fin 4194304) (p q : Fin 3)
    (h : ∀ p' q' : Fin 2, ¬ ((p.val : Int) = (idx (ix1 0)).toInt + (p'.val : Int) ∧
      (q.val : Int) = (idx (ix1 1)).toInt + (q'.val : Int))) :
    Host.scatter d33 (fun _ v => v) x idx upd (ix3 b p q) = x (ix3 b p q) := by
  refine scatter_set_miss d33 x idx upd (ix3 b p q) ?_
  intro j' hj'
  obtain ⟨b'', p'', q'', rfl⟩ : ∃ (b'' : Fin 4194304) (p'' q'' : Fin 2), j' = ix3 b'' p'' q'' :=
    ⟨_, _, _, eq_ix3 j'⟩
  obtain ⟨-, e1, e2⟩ := (lands33 idx b'' p'' q'' b p q).1 hj'
  exact h p'' q'' ⟨e1, e2⟩

/-- The 2×2 block set at position (0, 0): rows and columns 0 and 1 hold the update, the rest the operand. -/
theorem scatter33_at_00 (x : S4194304x3x3.Idx → α) (idx : IVec S2 32) (upd : S4194304x2x2.Idx → α)
    (h0 : idx (ix1 0) = 0#32) (h1 : idx (ix1 1) = 0#32) (b : Fin 4194304) (p q : Fin 3) :
    Host.scatter d33 (fun _ v => v) x idx upd (ix3 b p q)
      = if h : p.val < 2 ∧ q.val < 2 then upd (ix3 b ⟨p.val, h.1⟩ ⟨q.val, h.2⟩) else x (ix3 b p q) := by
  have z : (0#32 : BitVec 32).toInt = 0 := by decide
  by_cases h : p.val < 2 ∧ q.val < 2
  · rw [dif_pos h]
    refine scatter33_hit x idx upd b p q ⟨p.val, h.1⟩ ⟨q.val, h.2⟩ ?_ ?_
    · rw [h0, z]
      show (p.val : Int) = 0 + (p.val : Int)
      omega
    · rw [h1, z]
      show (q.val : Int) = 0 + (q.val : Int)
      omega
  · rw [dif_neg h]
    refine scatter33_miss x idx upd b p q ?_
    rintro p' q' ⟨e1, e2⟩
    rw [h0, z] at e1
    rw [h1, z] at e2
    have hp' := p'.isLt
    have hq' := q'.isLt
    exact h ⟨by omega, by omega⟩

/-- The 2×2 block set at position (1, 1): rows and columns 1 and 2 hold the update, the rest the operand. -/
theorem scatter33_at_11 (x : S4194304x3x3.Idx → α) (idx : IVec S2 32) (upd : S4194304x2x2.Idx → α)
    (h0 : idx (ix1 0) = 1#32) (h1 : idx (ix1 1) = 1#32) (b : Fin 4194304) (p q : Fin 3) :
    Host.scatter d33 (fun _ v => v) x idx upd (ix3 b p q)
      = if h : 1 ≤ p.val ∧ 1 ≤ q.val then
          upd (ix3 b ⟨p.val - 1, by have := p.isLt; omega⟩ ⟨q.val - 1, by have := q.isLt; omega⟩)
        else x (ix3 b p q) := by
  have z : (1#32 : BitVec 32).toInt = 1 := by decide
  by_cases h : 1 ≤ p.val ∧ 1 ≤ q.val
  · rw [dif_pos h]
    refine scatter33_hit x idx upd b p q ⟨p.val - 1, by have := p.isLt; omega⟩
      ⟨q.val - 1, by have := q.isLt; omega⟩ ?_ ?_
    · rw [h0, z]
      show (p.val : Int) = 1 + ((p.val - 1 : Nat) : Int)
      omega
    · rw [h1, z]
      show (q.val : Int) = 1 + ((q.val - 1 : Nat) : Int)
      omega
  · rw [dif_neg h]
    refine scatter33_miss x idx upd b p q ?_
    rintro p' q' ⟨e1, e2⟩
    rw [h0, z] at e1
    rw [h1, z] at e2
    exact h ⟨by omega, by omega⟩

/-! ## The 3×1 record, axis by axis: the batch axis carries the update's one coordinate and no start; the
    two inserted axes carry the index words and no window coordinate -/

/-- The batch axis is not a scattered axis: its window starts at 0. -/
theorem start31_0 (j : S4194304.Idx) (idx : IVec S2 32) : ScatterDims.start d31 j idx ⟨0, by decide⟩ = 0 := rfl

/-- On operand axis 1 the window starts at index word 0, read signed. -/
theorem start31_1 (j : S4194304.Idx) (idx : IVec S2 32) :
    ScatterDims.start d31 j idx ⟨1, by decide⟩ = (idx (ix1 0)).toInt := by
  have hm : (⟨1, by decide⟩ : Fin S4194304x3x1.rank) ∈ ScatterDims.scatterDimsToOperandDims d31 := by
    show _ ∈ ([1, 2] : List (Fin 3))
    decide
  unfold ScatterDims.start
  rw [dif_pos hm]
  congr 2
  funext c
  match c with
  | ⟨0, _⟩ => rfl

/-- On operand axis 2 the window starts at index word 1, read signed. -/
theorem start31_2 (j : S4194304.Idx) (idx : IVec S2 32) :
    ScatterDims.start d31 j idx ⟨2, by decide⟩ = (idx (ix1 1)).toInt := by
  have hm : (⟨2, by decide⟩ : Fin S4194304x3x1.rank) ∈ ScatterDims.scatterDimsToOperandDims d31 := by
    show _ ∈ ([1, 2] : List (Fin 3))
    decide
  unfold ScatterDims.start
  rw [dif_pos hm]
  congr 2
  funext c
  match c with
  | ⟨0, _⟩ => rfl

/-- On the batch axis the window coordinate is the update's one coordinate. -/
theorem window31_0 (j : S4194304.Idx) : ScatterDims.window d31 j ⟨0, by decide⟩ = (j ⟨0, by decide⟩).val := rfl

/-- Operand axis 1 is an inserted axis: no window coordinate. -/
theorem window31_1 (j : S4194304.Idx) : ScatterDims.window d31 j ⟨1, by decide⟩ = 0 := rfl

/-- Operand axis 2 is an inserted axis: no window coordinate. -/
theorem window31_2 (j : S4194304.Idx) : ScatterDims.window d31 j ⟨2, by decide⟩ = 0 := rfl

/-- WHERE A PER-BATCH UPDATE LANDS: update (b') lands on (b, p, r) exactly when b = b', p = s₀ and r = s₁,
    for (s₀, s₁) the two index words read signed. -/
theorem lands31 (idx : IVec S2 32) (b' b : Fin 4194304) (p : Fin 3) (r : Fin 1) :
    ScatterDims.resultIdx? d31 (ix1 b') idx = some (ix3 b p r) ↔
      b.val = b'.val ∧ (p.val : Int) = (idx (ix1 0)).toInt ∧ (r.val : Int) = (idx (ix1 1)).toInt := by
  rw [resultIdx?_eq_some_iff]
  constructor
  · intro h
    have h0 := h ⟨0, by decide⟩
    have h1 := h ⟨1, by decide⟩
    have h2 := h ⟨2, by decide⟩
    rw [start31_0, window31_0] at h0
    rw [start31_1, window31_1] at h1
    rw [start31_2, window31_2] at h2
    have h0' : (b.val : Int) = 0 + (b'.val : Int) := h0
    have h1' : (p.val : Int) = (idx (ix1 0)).toInt + ((0 : Nat) : Int) := h1
    have h2' : (r.val : Int) = (idx (ix1 1)).toInt + ((0 : Nat) : Int) := h2
    exact ⟨by omega, by omega, by omega⟩
  · rintro ⟨h0, h1, h2⟩ a
    obtain ⟨k, hk⟩ := a
    have hk3 : k < 3 := hk
    interval_cases k
    · rw [start31_0, window31_0]
      show (b.val : Int) = 0 + (b'.val : Int)
      omega
    · rw [start31_1, window31_1]
      show (p.val : Int) = (idx (ix1 0)).toInt + ((0 : Nat) : Int)
      omega
    · rw [start31_2, window31_2]
      show (r.val : Int) = (idx (ix1 1)).toInt + ((0 : Nat) : Int)
      omega

/-- HIT, 3×1. An element (b, p, r) with p = s₀ and r = s₁ holds the update's element of batch b: that
    update lands there, and an update that lands there has the same batch. -/
theorem scatter31_hit (x : S4194304x3x1.Idx → α) (idx : IVec S2 32) (upd : S4194304.Idx → α)
    (b : Fin 4194304) (p : Fin 3) (r : Fin 1)
    (hp : (p.val : Int) = (idx (ix1 0)).toInt) (hr : (r.val : Int) = (idx (ix1 1)).toInt) :
    Host.scatter d31 (fun _ v => v) x idx upd (ix3 b p r) = upd (ix1 b) := by
  refine scatter_set_hit d31 x idx upd (ix3 b p r) (ix1 b) ?_ ?_
  · exact (lands31 idx b b p r).2 ⟨rfl, hp, hr⟩
  · intro j' hj'
    obtain ⟨b'', rfl⟩ : ∃ b'' : Fin 4194304, j' = ix1 b'' := ⟨_, eq_ix1 j'⟩
    obtain ⟨e0, -, -⟩ := (lands31 idx b'' b p r).1 hj'
    have hb : b'' = b := Fin.ext e0.symm
    rw [hb]

/-- MISS, 3×1. An element (b, p, r) with p ≠ s₀ or r ≠ s₁ keeps the operand's element. -/
theorem scatter31_miss (x : S4194304x3x1.Idx → α) (idx : IVec S2 32) (upd : S4194304.Idx → α)
    (b : Fin 4194304) (p : Fin 3) (r : Fin 1)
    (h : ¬ ((p.val : Int) = (idx (ix1 0)).toInt ∧ (r.val : Int) = (idx (ix1 1)).toInt)) :
    Host.scatter d31 (fun _ v => v) x idx upd (ix3 b p r) = x (ix3 b p r) := by
  refine scatter_set_miss d31 x idx upd (ix3 b p r) ?_
  intro j' hj'
  obtain ⟨b'', rfl⟩ : ∃ b'' : Fin 4194304, j' = ix1 b'' := ⟨_, eq_ix1 j'⟩
  obtain ⟨-, e1, e2⟩ := (lands31 idx b'' b p r).1 hj'
  exact h ⟨e1, e2⟩

/-- The column set at position (2, 0): row 2 holds the batch's update, rows 0 and 1 the operand. -/
theorem scatter31_at_20 (x : S4194304x3x1.Idx → α) (idx : IVec S2 32) (upd : S4194304.Idx → α)
    (h0 : idx (ix1 0) = 2#32) (h1 : idx (ix1 1) = 0#32) (b : Fin 4194304) (p : Fin 3) (r : Fin 1) :
    Host.scatter d31 (fun _ v => v) x idx upd (ix3 b p r)
      = if p.val = 2 then upd (ix1 b) else x (ix3 b p r) := by
  have z2 : (2#32 : BitVec 32).toInt = 2 := by decide
  have z0 : (0#32 : BitVec 32).toInt = 0 := by decide
  by_cases h : p.val = 2
  · rw [if_pos h]
    refine scatter31_hit x idx upd b p r ?_ ?_
    · rw [h0, z2]
      omega
    · rw [h1, z0]
      have hr := r.isLt
      omega
  · rw [if_neg h]
    refine scatter31_miss x idx upd b p r ?_
    rintro ⟨e1, -⟩
    rw [h0, z2] at e1
    exact h (by omega)

/-! ## The same three statements at each literal coordinate pair -/

/-- Position (0, 0): element (b, 0, 0) holds the update's (b, 0, 0). -/
theorem scatter33_at_00_0_0 (x : S4194304x3x3.Idx → α) (idx : IVec S2 32) (upd : S4194304x2x2.Idx → α)
    (h0 : idx (ix1 0) = 0#32) (h1 : idx (ix1 1) = 0#32) (b : Fin 4194304) :
    Host.scatter d33 (fun _ v => v) x idx upd (ix3 b (0 : Fin 3) (0 : Fin 3)) = upd (ix3 b (0 : Fin 2) (0 : Fin 2)) :=
  scatter33_hit x idx upd b 0 0 0 0 (by rw [h0]; decide) (by rw [h1]; decide)

/-- Position (0, 0): element (b, 0, 1) holds the update's (b, 0, 1). -/
theorem scatter33_at_00_0_1 (x : S4194304x3x3.Idx → α) (idx : IVec S2 32) (upd : S4194304x2x2.Idx → α)
    (h0 : idx (ix1 0) = 0#32) (h1 : idx (ix1 1) = 0#32) (b : Fin 4194304) :
    Host.scatter d33 (fun _ v => v) x idx upd (ix3 b (0 : Fin 3) (1 : Fin 3)) = upd (ix3 b (0 : Fin 2) (1 : Fin 2)) :=
  scatter33_hit x idx upd b 0 1 0 1 (by rw [h0]; decide) (by rw [h1]; decide)

/-- Position (0, 0): element (b, 0, 2) is outside the block and keeps the operand's. -/
theorem scatter33_at_00_0_2 (x : S4194304x3x3.Idx → α) (idx : IVec S2 32) (upd : S4194304x2x2.Idx → α)
    (h0 : idx (ix1 0) = 0#32) (h1 : idx (ix1 1) = 0#32) (b : Fin 4194304) :
    Host.scatter d33 (fun _ v => v) x idx upd (ix3 b (0 : Fin 3) (2 : Fin 3)) = x (ix3 b (0 : Fin 3) (2 : Fin 3)) :=
  (scatter33_at_00 x idx upd h0 h1 b 0 2).trans (dif_neg (by decide))

/-- Position (0, 0): element (b, 1, 0) holds the update's (b, 1, 0). -/
theorem scatter33_at_00_1_0 (x : S4194304x3x3.Idx → α) (idx : IVec S2 32) (upd : S4194304x2x2.Idx → α)
    (h0 : idx (ix1 0) = 0#32) (h1 : idx (ix1 1) = 0#32) (b : Fin 4194304) :
    Host.scatter d33 (fun _ v => v) x idx upd (ix3 b (1 : Fin 3) (0 : Fin 3)) = upd (ix3 b (1 : Fin 2) (0 : Fin 2)) :=
  scatter33_hit x idx upd b 1 0 1 0 (by rw [h0]; decide) (by rw [h1]; decide)

/-- Position (0, 0): element (b, 1, 1) holds the update's (b, 1, 1). -/
theorem scatter33_at_00_1_1 (x : S4194304x3x3.Idx → α) (idx : IVec S2 32) (upd : S4194304x2x2.Idx → α)
    (h0 : idx (ix1 0) = 0#32) (h1 : idx (ix1 1) = 0#32) (b : Fin 4194304) :
    Host.scatter d33 (fun _ v => v) x idx upd (ix3 b (1 : Fin 3) (1 : Fin 3)) = upd (ix3 b (1 : Fin 2) (1 : Fin 2)) :=
  scatter33_hit x idx upd b 1 1 1 1 (by rw [h0]; decide) (by rw [h1]; decide)

/-- Position (0, 0): element (b, 1, 2) is outside the block and keeps the operand's. -/
theorem scatter33_at_00_1_2 (x : S4194304x3x3.Idx → α) (idx : IVec S2 32) (upd : S4194304x2x2.Idx → α)
    (h0 : idx (ix1 0) = 0#32) (h1 : idx (ix1 1) = 0#32) (b : Fin 4194304) :
    Host.scatter d33 (fun _ v => v) x idx upd (ix3 b (1 : Fin 3) (2 : Fin 3)) = x (ix3 b (1 : Fin 3) (2 : Fin 3)) :=
  (scatter33_at_00 x idx upd h0 h1 b 1 2).trans (dif_neg (by decide))

/-- Position (0, 0): element (b, 2, 0) is outside the block and keeps the operand's. -/
theorem scatter33_at_00_2_0 (x : S4194304x3x3.Idx → α) (idx : IVec S2 32) (upd : S4194304x2x2.Idx → α)
    (h0 : idx (ix1 0) = 0#32) (h1 : idx (ix1 1) = 0#32) (b : Fin 4194304) :
    Host.scatter d33 (fun _ v => v) x idx upd (ix3 b (2 : Fin 3) (0 : Fin 3)) = x (ix3 b (2 : Fin 3) (0 : Fin 3)) :=
  (scatter33_at_00 x idx upd h0 h1 b 2 0).trans (dif_neg (by decide))

/-- Position (0, 0): element (b, 2, 1) is outside the block and keeps the operand's. -/
theorem scatter33_at_00_2_1 (x : S4194304x3x3.Idx → α) (idx : IVec S2 32) (upd : S4194304x2x2.Idx → α)
    (h0 : idx (ix1 0) = 0#32) (h1 : idx (ix1 1) = 0#32) (b : Fin 4194304) :
    Host.scatter d33 (fun _ v => v) x idx upd (ix3 b (2 : Fin 3) (1 : Fin 3)) = x (ix3 b (2 : Fin 3) (1 : Fin 3)) :=
  (scatter33_at_00 x idx upd h0 h1 b 2 1).trans (dif_neg (by decide))

/-- Position (0, 0): element (b, 2, 2) is outside the block and keeps the operand's. -/
theorem scatter33_at_00_2_2 (x : S4194304x3x3.Idx → α) (idx : IVec S2 32) (upd : S4194304x2x2.Idx → α)
    (h0 : idx (ix1 0) = 0#32) (h1 : idx (ix1 1) = 0#32) (b : Fin 4194304) :
    Host.scatter d33 (fun _ v => v) x idx upd (ix3 b (2 : Fin 3) (2 : Fin 3)) = x (ix3 b (2 : Fin 3) (2 : Fin 3)) :=
  (scatter33_at_00 x idx upd h0 h1 b 2 2).trans (dif_neg (by decide))

/-- Position (1, 1): element (b, 0, 0) is outside the block and keeps the operand's. -/
theorem scatter33_at_11_0_0 (x : S4194304x3x3.Idx → α) (idx : IVec S2 32) (upd : S4194304x2x2.Idx → α)
    (h0 : idx (ix1 0) = 1#32) (h1 : idx (ix1 1) = 1#32) (b : Fin 4194304) :
    Host.scatter d33 (fun _ v => v) x idx upd (ix3 b (0 : Fin 3) (0 : Fin 3)) = x (ix3 b (0 : Fin 3) (0 : Fin 3)) :=
  (scatter33_at_11 x idx upd h0 h1 b 0 0).trans (dif_neg (by decide))

/-- Position (1, 1): element (b, 0, 1) is outside the block and keeps the operand's. -/
theorem scatter33_at_11_0_1 (x : S4194304x3x3.Idx → α) (idx : IVec S2 32) (upd : S4194304x2x2.Idx → α)
    (h0 : idx (ix1 0) = 1#32) (h1 : idx (ix1 1) = 1#32) (b : Fin 4194304) :
    Host.scatter d33 (fun _ v => v) x idx upd (ix3 b (0 : Fin 3) (1 : Fin 3)) = x (ix3 b (0 : Fin 3) (1 : Fin 3)) :=
  (scatter33_at_11 x idx upd h0 h1 b 0 1).trans (dif_neg (by decide))

/-- Position (1, 1): element (b, 0, 2) is outside the block and keeps the operand's. -/
theorem scatter33_at_11_0_2 (x : S4194304x3x3.Idx → α) (idx : IVec S2 32) (upd : S4194304x2x2.Idx → α)
    (h0 : idx (ix1 0) = 1#32) (h1 : idx (ix1 1) = 1#32) (b : Fin 4194304) :
    Host.scatter d33 (fun _ v => v) x idx upd (ix3 b (0 : Fin 3) (2 : Fin 3)) = x (ix3 b (0 : Fin 3) (2 : Fin 3)) :=
  (scatter33_at_11 x idx upd h0 h1 b 0 2).trans (dif_neg (by decide))

/-- Position (1, 1): element (b, 1, 0) is outside the block and keeps the operand's. -/
theorem scatter33_at_11_1_0 (x : S4194304x3x3.Idx → α) (idx : IVec S2 32) (upd : S4194304x2x2.Idx → α)
    (h0 : idx (ix1 0) = 1#32) (h1 : idx (ix1 1) = 1#32) (b : Fin 4194304) :
    Host.scatter d33 (fun _ v => v) x idx upd (ix3 b (1 : Fin 3) (0 : Fin 3)) = x (ix3 b (1 : Fin 3) (0 : Fin 3)) :=
  (scatter33_at_11 x idx upd h0 h1 b 1 0).trans (dif_neg (by decide))

/-- Position (1, 1): element (b, 1, 1) holds the update's (b, 0, 0). -/
theorem scatter33_at_11_1_1 (x : S4194304x3x3.Idx → α) (idx : IVec S2 32) (upd : S4194304x2x2.Idx → α)
    (h0 : idx (ix1 0) = 1#32) (h1 : idx (ix1 1) = 1#32) (b : Fin 4194304) :
    Host.scatter d33 (fun _ v => v) x idx upd (ix3 b (1 : Fin 3) (1 : Fin 3)) = upd (ix3 b (0 : Fin 2) (0 : Fin 2)) :=
  scatter33_hit x idx upd b 1 1 0 0 (by rw [h0]; decide) (by rw [h1]; decide)

/-- Position (1, 1): element (b, 1, 2) holds the update's (b, 0, 1). -/
theorem scatter33_at_11_1_2 (x : S4194304x3x3.Idx → α) (idx : IVec S2 32) (upd : S4194304x2x2.Idx → α)
    (h0 : idx (ix1 0) = 1#32) (h1 : idx (ix1 1) = 1#32) (b : Fin 4194304) :
    Host.scatter d33 (fun _ v => v) x idx upd (ix3 b (1 : Fin 3) (2 : Fin 3)) = upd (ix3 b (0 : Fin 2) (1 : Fin 2)) :=
  scatter33_hit x idx upd b 1 2 0 1 (by rw [h0]; decide) (by rw [h1]; decide)

/-- Position (1, 1): element (b, 2, 0) is outside the block and keeps the operand's. -/
theorem scatter33_at_11_2_0 (x : S4194304x3x3.Idx → α) (idx : IVec S2 32) (upd : S4194304x2x2.Idx → α)
    (h0 : idx (ix1 0) = 1#32) (h1 : idx (ix1 1) = 1#32) (b : Fin 4194304) :
    Host.scatter d33 (fun _ v => v) x idx upd (ix3 b (2 : Fin 3) (0 : Fin 3)) = x (ix3 b (2 : Fin 3) (0 : Fin 3)) :=
  (scatter33_at_11 x idx upd h0 h1 b 2 0).trans (dif_neg (by decide))

/-- Position (1, 1): element (b, 2, 1) holds the update's (b, 1, 0). -/
theorem scatter33_at_11_2_1 (x : S4194304x3x3.Idx → α) (idx : IVec S2 32) (upd : S4194304x2x2.Idx → α)
    (h0 : idx (ix1 0) = 1#32) (h1 : idx (ix1 1) = 1#32) (b : Fin 4194304) :
    Host.scatter d33 (fun _ v => v) x idx upd (ix3 b (2 : Fin 3) (1 : Fin 3)) = upd (ix3 b (1 : Fin 2) (0 : Fin 2)) :=
  scatter33_hit x idx upd b 2 1 1 0 (by rw [h0]; decide) (by rw [h1]; decide)

/-- Position (1, 1): element (b, 2, 2) holds the update's (b, 1, 1). -/
theorem scatter33_at_11_2_2 (x : S4194304x3x3.Idx → α) (idx : IVec S2 32) (upd : S4194304x2x2.Idx → α)
    (h0 : idx (ix1 0) = 1#32) (h1 : idx (ix1 1) = 1#32) (b : Fin 4194304) :
    Host.scatter d33 (fun _ v => v) x idx upd (ix3 b (2 : Fin 3) (2 : Fin 3)) = upd (ix3 b (1 : Fin 2) (1 : Fin 2)) :=
  scatter33_hit x idx upd b 2 2 1 1 (by rw [h0]; decide) (by rw [h1]; decide)

/-- Position (2, 0): element (b, 0, r) is outside the column's row and keeps the operand's. -/
theorem scatter31_at_20_0 (x : S4194304x3x1.Idx → α) (idx : IVec S2 32) (upd : S4194304.Idx → α)
    (h0 : idx (ix1 0) = 2#32) (h1 : idx (ix1 1) = 0#32) (b : Fin 4194304) (r : Fin 1) :
    Host.scatter d31 (fun _ v => v) x idx upd (ix3 b (0 : Fin 3) r) = x (ix3 b (0 : Fin 3) r) :=
  (scatter31_at_20 x idx upd h0 h1 b 0 r).trans (if_neg (by decide))

/-- Position (2, 0): element (b, 1, r) is outside the column's row and keeps the operand's. -/
theorem scatter31_at_20_1 (x : S4194304x3x1.Idx → α) (idx : IVec S2 32) (upd : S4194304.Idx → α)
    (h0 : idx (ix1 0) = 2#32) (h1 : idx (ix1 1) = 0#32) (b : Fin 4194304) (r : Fin 1) :
    Host.scatter d31 (fun _ v => v) x idx upd (ix3 b (1 : Fin 3) r) = x (ix3 b (1 : Fin 3) r) :=
  (scatter31_at_20 x idx upd h0 h1 b 1 r).trans (if_neg (by decide))

/-- Position (2, 0): element (b, 2, r) holds the batch's update. -/
theorem scatter31_at_20_2 (x : S4194304x3x1.Idx → α) (idx : IVec S2 32) (upd : S4194304.Idx → α)
    (h0 : idx (ix1 0) = 2#32) (h1 : idx (ix1 1) = 0#32) (b : Fin 4194304) (r : Fin 1) :
    Host.scatter d31 (fun _ v => v) x idx upd (ix3 b (2 : Fin 3) r) = upd (ix1 b) :=
  (scatter31_at_20 x idx upd h0 h1 b 2 r).trans (if_pos (by decide))

end Cert.ReferenceIdeal.RefScatter
-- ==== Proof.RefMatrix.lean ====
/-
  The reference's matrices, entry by entry.

  The reference builds, for every row b, two 3 × 3 rotation matrices and a column vector by writing blocks into
  constant arrays: the identity (an equality test of a row counter against a column counter, read as 0 or 1) with a
  2 × 2 block written at offset (0, 0), respectively (1, 1), and a zero column with one entry written at (2, 0). The
  offsets are two-word index vectors assembled from constants. The 2 × 2 blocks are two plane vectors stacked as
  columns. Here each of these arrays is read at every literal position (i, j): either an entry of one of the
  stacked vectors, or 0, or 1.
-/
import proofs.«154047_j78185584656835_2_alg».proof.Proof.Gen.ReferenceIdeal.Read
import proofs.«154047_j78185584656835_2_alg».proof.Proof.RefScatter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMatrix

open Cert.ReferenceIdeal Cert.ReferenceIdeal.Gen Cert.ReferenceIdeal.Read Cert.ReferenceIdeal.RefScatter
open Idealize.ShloMosaic Idealize.ShloMosaic.ValueIdx

/-! ## The identity matrix

Entry (i, j) is the equality test of i + 0 against j read as a number: 1 on the diagonal, 0 off it. -/

theorem eye_idx (b : Fin 4194304) (i j : Fin 3) : idx_main_v52 (ix3 b i j) = ix2 i j :=
  funext fun a => Fin.ext (by match a with | ⟨0, _⟩ => rfl | ⟨1, _⟩ => rfl)

theorem eye_word (i j : Fin 3) : val_main_v50 (F := Ideal) (ix2 i j) = if i = j then 1#1 else 0#1 := by
  rw [val_main_v50_apply, val_main_v49_apply, val_main_v48_apply]
  fin_cases i <;> fin_cases j <;> decide

theorem eye_at (b : Fin 4194304) (i j : Fin 3) :
    val_main_v52 (F := Ideal) (ix3 b i j) = if i = j then (1 : EReal) else 0 := by
  rw [val_main_v52_apply, eye_idx, val_main_v51_apply, eye_word]
  by_cases h : i = j
  · rw [if_pos h, if_pos h]; show (((1#1 : BitVec 1).toNat : ℝ) : EReal) = 1; simp
  · rw [if_neg h, if_neg h]; show (((0#1 : BitVec 1).toNat : ℝ) : EReal) = 0; simp

/-! ## The offsets of the three written blocks: (0, 0), (1, 1) and (2, 0) -/

theorem word55_0 : val_main_v55 (F := Ideal) (ix1 (0 : Fin 2)) = 0#32 := by
  unfold val_main_v55
  refine (concatenate_pair_apply_left (t := S2) (s₁ := S1) (s₂ := S1) 0 (val_main_v53 (F := Ideal)) (val_main_v54 (F := Ideal))
    concatenates_S1_S1_S2_d0 (ix1 (0 : Fin 2)) rfl (ix1 (0 : Fin 1)) (fun a => by match a with | ⟨0, _⟩ => rfl)).trans ?_
  rw [val_main_v53_apply]; rfl

theorem word55_1 : val_main_v55 (F := Ideal) (ix1 (1 : Fin 2)) = 0#32 := by
  unfold val_main_v55
  refine (concatenate_pair_apply_right (t := S2) (s₁ := S1) (s₂ := S1) 0 (val_main_v53 (F := Ideal)) (val_main_v54 (F := Ideal))
    concatenates_S1_S1_S2_d0 (ix1 (1 : Fin 2)) rfl rfl (ix1 (0 : Fin 1)) (fun a ha => by match a with | ⟨0, _⟩ => exact absurd rfl ha) rfl).trans ?_
  rw [val_main_v54_apply]; rfl

theorem word59_0 : val_main_v59 (F := Ideal) (ix1 (0 : Fin 2)) = 1#32 := by
  unfold val_main_v59
  refine (concatenate_pair_apply_left (t := S2) (s₁ := S1) (s₂ := S1) 0 (val_main_v57 (F := Ideal)) (val_main_v58 (F := Ideal))
    concatenates_S1_S1_S2_d0 (ix1 (0 : Fin 2)) rfl (ix1 (0 : Fin 1)) (fun a => by match a with | ⟨0, _⟩ => rfl)).trans ?_
  rw [val_main_v57_apply]; rfl

theorem word59_1 : val_main_v59 (F := Ideal) (ix1 (1 : Fin 2)) = 1#32 := by
  unfold val_main_v59
  refine (concatenate_pair_apply_right (t := S2) (s₁ := S1) (s₂ := S1) 0 (val_main_v57 (F := Ideal)) (val_main_v58 (F := Ideal))
    concatenates_S1_S1_S2_d0 (ix1 (1 : Fin 2)) rfl rfl (ix1 (0 : Fin 1)) (fun a ha => by match a with | ⟨0, _⟩ => exact absurd rfl ha) rfl).trans ?_
  rw [val_main_v58_apply]; rfl

theorem word65_0 : val_main_v65 (F := Ideal) (ix1 (0 : Fin 2)) = 2#32 := by
  unfold val_main_v65
  refine (concatenate_pair_apply_left (t := S2) (s₁ := S1) (s₂ := S1) 0 (val_main_v63 (F := Ideal)) (val_main_v64 (F := Ideal))
    concatenates_S1_S1_S2_d0 (ix1 (0 : Fin 2)) rfl (ix1 (0 : Fin 1)) (fun a => by match a with | ⟨0, _⟩ => rfl)).trans ?_
  rw [val_main_v63_apply]; rfl

theorem word65_1 : val_main_v65 (F := Ideal) (ix1 (1 : Fin 2)) = 0#32 := by
  unfold val_main_v65
  refine (concatenate_pair_apply_right (t := S2) (s₁ := S1) (s₂ := S1) 0 (val_main_v63 (F := Ideal)) (val_main_v64 (F := Ideal))
    concatenates_S1_S1_S2_d0 (ix1 (1 : Fin 2)) rfl rfl (ix1 (0 : Fin 1)) (fun a ha => by match a with | ⟨0, _⟩ => exact absurd rfl ha) rfl).trans ?_
  rw [val_main_v64_apply]; rfl

/-! ## The stacked pairs -/

/-- Column 0 of the stacked pair is the first vector, column 1 the second. -/
theorem v21_col0 (x : (⟨S4194304x9, .f32⟩ : BufTy).Contents (Elt Ideal)) (b : Fin 4194304) (p : Fin 2) :
    val_main_v21 (F := Ideal) x (ix3 b p (0 : Fin 2)) = val_main_v7 (F := Ideal) x (ix2 b p) := by
  unfold val_main_v21
  refine (concatenate_pair_apply_left (t := S4194304x2x2) (s₁ := S4194304x2x1) (s₂ := S4194304x2x1) 2 (val_main_v19 (F := Ideal) x) (val_main_v20 (F := Ideal) x)
    concatenates_S4194304x2x1_S4194304x2x1_S4194304x2x2_d2 (ix3 b p (0 : Fin 2)) rfl (ix3 b p (0 : Fin 1))
    (fun a => by match a with | ⟨0, _⟩ => rfl | ⟨1, _⟩ => rfl | ⟨2, _⟩ => rfl)).trans ?_
  rw [val_main_v19_apply]
  exact congrArg _ (funext fun a => Fin.ext (by match a with | ⟨0, _⟩ => rfl | ⟨1, _⟩ => rfl))

theorem v21_col1 (x : (⟨S4194304x9, .f32⟩ : BufTy).Contents (Elt Ideal)) (b : Fin 4194304) (p : Fin 2) :
    val_main_v21 (F := Ideal) x (ix3 b p (1 : Fin 2)) = val_main_v18 (F := Ideal) x (ix2 b p) := by
  unfold val_main_v21
  refine (concatenate_pair_apply_right (t := S4194304x2x2) (s₁ := S4194304x2x1) (s₂ := S4194304x2x1) 2 (val_main_v19 (F := Ideal) x) (val_main_v20 (F := Ideal) x)
    concatenates_S4194304x2x1_S4194304x2x1_S4194304x2x2_d2 (ix3 b p (1 : Fin 2)) rfl rfl (ix3 b p (0 : Fin 1))
    (fun a ha => by match a with | ⟨0, _⟩ => rfl | ⟨1, _⟩ => rfl | ⟨2, _⟩ => exact absurd rfl ha) rfl).trans ?_
  rw [val_main_v20_apply]
  exact congrArg _ (funext fun a => Fin.ext (by match a with | ⟨0, _⟩ => rfl | ⟨1, _⟩ => rfl))

/-- Column 0 of the stacked pair is the first vector, column 1 the second. -/
theorem v43_col0 (x : (⟨S4194304x9, .f32⟩ : BufTy).Contents (Elt Ideal)) (b : Fin 4194304) (p : Fin 2) :
    val_main_v43 (F := Ideal) x (ix3 b p (0 : Fin 2)) = val_main_v29 (F := Ideal) x (ix2 b p) := by
  unfold val_main_v43
  refine (concatenate_pair_apply_left (t := S4194304x2x2) (s₁ := S4194304x2x1) (s₂ := S4194304x2x1) 2 (val_main_v41 (F := Ideal) x) (val_main_v42 (F := Ideal) x)
    concatenates_S4194304x2x1_S4194304x2x1_S4194304x2x2_d2 (ix3 b p (0 : Fin 2)) rfl (ix3 b p (0 : Fin 1))
    (fun a => by match a with | ⟨0, _⟩ => rfl | ⟨1, _⟩ => rfl | ⟨2, _⟩ => rfl)).trans ?_
  rw [val_main_v41_apply]
  exact congrArg _ (funext fun a => Fin.ext (by match a with | ⟨0, _⟩ => rfl | ⟨1, _⟩ => rfl))

theorem v43_col1 (x : (⟨S4194304x9, .f32⟩ : BufTy).Contents (Elt Ideal)) (b : Fin 4194304) (p : Fin 2) :
    val_main_v43 (F := Ideal) x (ix3 b p (1 : Fin 2)) = val_main_v40 (F := Ideal) x (ix2 b p) := by
  unfold val_main_v43
  refine (concatenate_pair_apply_right (t := S4194304x2x2) (s₁ := S4194304x2x1) (s₂ := S4194304x2x1) 2 (val_main_v41 (F := Ideal) x) (val_main_v42 (F := Ideal) x)
    concatenates_S4194304x2x1_S4194304x2x1_S4194304x2x2_d2 (ix3 b p (1 : Fin 2)) rfl rfl (ix3 b p (0 : Fin 1))
    (fun a ha => by match a with | ⟨0, _⟩ => rfl | ⟨1, _⟩ => rfl | ⟨2, _⟩ => exact absurd rfl ha) rfl).trans ?_
  rw [val_main_v42_apply]
  exact congrArg _ (funext fun a => Fin.ext (by match a with | ⟨0, _⟩ => rfl | ⟨1, _⟩ => rfl))

/-! ## The two 3 × 3 matrices and the column vector, entry by entry

The rotation about the third axis holds the second orthonormal pair in its top-left 2 × 2 block and the identity
elsewhere; the rotation about the first axis holds the first pair in its bottom-right block; the column vector is
zero but for the length in its last place. -/

theorem m56_0_0 (x : (⟨S4194304x9, .f32⟩ : BufTy).Contents (Elt Ideal)) (b : Fin 4194304) :
    val_main_v56 (F := Ideal) x (ix3 b (0 : Fin 3) (0 : Fin 3)) = val_main_v29 (F := Ideal) x (ix2 b (0 : Fin 2)) := by
  unfold val_main_v56
  exact (scatter33_at_00_0_0 _ _ _ word55_0 word55_1 b).trans (v43_col0 x b 0)

theorem m56_0_1 (x : (⟨S4194304x9, .f32⟩ : BufTy).Contents (Elt Ideal)) (b : Fin 4194304) :
    val_main_v56 (F := Ideal) x (ix3 b (0 : Fin 3) (1 : Fin 3)) = val_main_v40 (F := Ideal) x (ix2 b (0 : Fin 2)) := by
  unfold val_main_v56
  exact (scatter33_at_00_0_1 _ _ _ word55_0 word55_1 b).trans (v43_col1 x b 0)

theorem m56_0_2 (x : (⟨S4194304x9, .f32⟩ : BufTy).Contents (Elt Ideal)) (b : Fin 4194304) :
    val_main_v56 (F := Ideal) x (ix3 b (0 : Fin 3) (2 : Fin 3)) = 0 := by
  unfold val_main_v56
  exact (scatter33_at_00_0_2 _ _ _ word55_0 word55_1 b).trans ((eye_at b 0 2).trans (if_neg (by decide)))

theorem m56_1_0 (x : (⟨S4194304x9, .f32⟩ : BufTy).Contents (Elt Ideal)) (b : Fin 4194304) :
    val_main_v56 (F := Ideal) x (ix3 b (1 : Fin 3) (0 : Fin 3)) = val_main_v29 (F := Ideal) x (ix2 b (1 : Fin 2)) := by
  unfold val_main_v56
  exact (scatter33_at_00_1_0 _ _ _ word55_0 word55_1 b).trans (v43_col0 x b 1)

theorem m56_1_1 (x : (⟨S4194304x9, .f32⟩ : BufTy).Contents (Elt Ideal)) (b : Fin 4194304) :
    val_main_v56 (F := Ideal) x (ix3 b (1 : Fin 3) (1 : Fin 3)) = val_main_v40 (F := Ideal) x (ix2 b (1 : Fin 2)) := by
  unfold val_main_v56
  exact (scatter33_at_00_1_1 _ _ _ word55_0 word55_1 b).trans (v43_col1 x b 1)

theorem m56_1_2 (x : (⟨S4194304x9, .f32⟩ : BufTy).Contents (Elt Ideal)) (b : Fin 4194304) :
    val_main_v56 (F := Ideal) x (ix3 b (1 : Fin 3) (2 : Fin 3)) = 0 := by
  unfold val_main_v56
  exact (scatter33_at_00_1_2 _ _ _ word55_0 word55_1 b).trans ((eye_at b 1 2).trans (if_neg (by decide)))

theorem m56_2_0 (x : (⟨S4194304x9, .f32⟩ : BufTy).Contents (Elt Ideal)) (b : Fin 4194304) :
    val_main_v56 (F := Ideal) x (ix3 b (2 : Fin 3) (0 : Fin 3)) = 0 := by
  unfold val_main_v56
  exact (scatter33_at_00_2_0 _ _ _ word55_0 word55_1 b).trans ((eye_at b 2 0).trans (if_neg (by decide)))

theorem m56_2_1 (x : (⟨S4194304x9, .f32⟩ : BufTy).Contents (Elt Ideal)) (b : Fin 4194304) :
    val_main_v56 (F := Ideal) x (ix3 b (2 : Fin 3) (1 : Fin 3)) = 0 := by
  unfold val_main_v56
  exact (scatter33_at_00_2_1 _ _ _ word55_0 word55_1 b).trans ((eye_at b 2 1).trans (if_neg (by decide)))

theorem m56_2_2 (x : (⟨S4194304x9, .f32⟩ : BufTy).Contents (Elt Ideal)) (b : Fin 4194304) :
    val_main_v56 (F := Ideal) x (ix3 b (2 : Fin 3) (2 : Fin 3)) = 1 := by
  unfold val_main_v56
  exact (scatter33_at_00_2_2 _ _ _ word55_0 word55_1 b).trans ((eye_at b 2 2).trans (if_pos rfl))

theorem m60_0_0 (x : (⟨S4194304x9, .f32⟩ : BufTy).Contents (Elt Ideal)) (b : Fin 4194304) :
    val_main_v60 (F := Ideal) x (ix3 b (0 : Fin 3) (0 : Fin 3)) = 1 := by
  unfold val_main_v60
  exact (scatter33_at_11_0_0 _ _ _ word59_0 word59_1 b).trans ((eye_at b 0 0).trans (if_pos rfl))

theorem m60_0_1 (x : (⟨S4194304x9, .f32⟩ : BufTy).Contents (Elt Ideal)) (b : Fin 4194304) :
    val_main_v60 (F := Ideal) x (ix3 b (0 : Fin 3) (1 : Fin 3)) = 0 := by
  unfold val_main_v60
  exact (scatter33_at_11_0_1 _ _ _ word59_0 word59_1 b).trans ((eye_at b 0 1).trans (if_neg (by decide)))

theorem m60_0_2 (x : (⟨S4194304x9, .f32⟩ : BufTy).Contents (Elt Ideal)) (b : Fin 4194304) :
    val_main_v60 (F := Ideal) x (ix3 b (0 : Fin 3) (2 : Fin 3)) = 0 := by
  unfold val_main_v60
  exact (scatter33_at_11_0_2 _ _ _ word59_0 word59_1 b).trans ((eye_at b 0 2).trans (if_neg (by decide)))

theorem m60_1_0 (x : (⟨S4194304x9, .f32⟩ : BufTy).Contents (Elt Ideal)) (b : Fin 4194304) :
    val_main_v60 (F := Ideal) x (ix3 b (1 : Fin 3) (0 : Fin 3)) = 0 := by
  unfold val_main_v60
  exact (scatter33_at_11_1_0 _ _ _ word59_0 word59_1 b).trans ((eye_at b 1 0).trans (if_neg (by decide)))

theorem m60_1_1 (x : (⟨S4194304x9, .f32⟩ : BufTy).Contents (Elt Ideal)) (b : Fin 4194304) :
    val_main_v60 (F := Ideal) x (ix3 b (1 : Fin 3) (1 : Fin 3)) = val_main_v7 (F := Ideal) x (ix2 b (0 : Fin 2)) := by
  unfold val_main_v60
  exact (scatter33_at_11_1_1 _ _ _ word59_0 word59_1 b).trans (v21_col0 x b 0)

theorem m60_1_2 (x : (⟨S4194304x9, .f32⟩ : BufTy).Contents (Elt Ideal)) (b : Fin 4194304) :
    val_main_v60 (F := Ideal) x (ix3 b (1 : Fin 3) (2 : Fin 3)) = val_main_v18 (F := Ideal) x (ix2 b (0 : Fin 2)) := by
  unfold val_main_v60
  exact (scatter33_at_11_1_2 _ _ _ word59_0 word59_1 b).trans (v21_col1 x b 0)

theorem m60_2_0 (x : (⟨S4194304x9, .f32⟩ : BufTy).Contents (Elt Ideal)) (b : Fin 4194304) :
    val_main_v60 (F := Ideal) x (ix3 b (2 : Fin 3) (0 : Fin 3)) = 0 := by
  unfold val_main_v60
  exact (scatter33_at_11_2_0 _ _ _ word59_0 word59_1 b).trans ((eye_at b 2 0).trans (if_neg (by decide)))

theorem m60_2_1 (x : (⟨S4194304x9, .f32⟩ : BufTy).Contents (Elt Ideal)) (b : Fin 4194304) :
    val_main_v60 (F := Ideal) x (ix3 b (2 : Fin 3) (1 : Fin 3)) = val_main_v7 (F := Ideal) x (ix2 b (1 : Fin 2)) := by
  unfold val_main_v60
  exact (scatter33_at_11_2_1 _ _ _ word59_0 word59_1 b).trans (v21_col0 x b 1)

theorem m60_2_2 (x : (⟨S4194304x9, .f32⟩ : BufTy).Contents (Elt Ideal)) (b : Fin 4194304) :
    val_main_v60 (F := Ideal) x (ix3 b (2 : Fin 3) (2 : Fin 3)) = val_main_v18 (F := Ideal) x (ix2 b (1 : Fin 2)) := by
  unfold val_main_v60
  exact (scatter33_at_11_2_2 _ _ _ word59_0 word59_1 b).trans (v21_col1 x b 1)

theorem zeros_at (i : S4194304x3x1.Idx) : val_main_v62 (F := Ideal) i = 0 := by
  rw [val_main_v62_apply, val_main_cst_9_apply]
  exact Ideal.ofBits_zero_f32

theorem m66_0 (x : (⟨S4194304x9, .f32⟩ : BufTy).Contents (Elt Ideal)) (b : Fin 4194304) (r : Fin 1) :
    val_main_v66 (F := Ideal) x (ix3 b (0 : Fin 3) r) = 0 := by
  unfold val_main_v66
  exact (scatter31_at_20_0 _ _ _ word65_0 word65_1 b r).trans (zeros_at _)

theorem m66_1 (x : (⟨S4194304x9, .f32⟩ : BufTy).Contents (Elt Ideal)) (b : Fin 4194304) (r : Fin 1) :
    val_main_v66 (F := Ideal) x (ix3 b (1 : Fin 3) r) = 0 := by
  unfold val_main_v66
  exact (scatter31_at_20_1 _ _ _ word65_0 word65_1 b r).trans (zeros_at _)

theorem m66_2 (x : (⟨S4194304x9, .f32⟩ : BufTy).Contents (Elt Ideal)) (b : Fin 4194304) (r : Fin 1) :
    val_main_v66 (F := Ideal) x (ix3 b (2 : Fin 3) r) = val_main_v45 (F := Ideal) x (ix1 b) := by
  unfold val_main_v66
  exact scatter31_at_20_2 _ _ _ word65_0 word65_1 b r

end Cert.ReferenceIdeal.RefMatrix

end
-- ==== Proof.RefGram.lean ====
/-
  The reference program's two Gram–Schmidt blocks, read at one row.

  Row b of the argument holds nine numbers f₀ … f₈. The program orthonormalises the pair (f₀, f₁), (f₂, f₃)
  and, by the same operations, the pair (f₄, f₅), (f₆, f₇): slices pick the columns; the norm of a plane
  vector is the square root of 0 plus the sum of the two squares, floored by a constant; the first vector
  is divided by its floored norm; its component along the second is 0 plus the sum of the two products;
  the remainder of the second vector is divided by its own floored norm. Every stage is read here at the
  one row b — at column 0 or 1 for a [rows, 2] stage, at the single column for a [rows, 1] stage — by
  following the stage's operands: the only facts used are that the zero word denotes 0, 0 + t = t, a
  two-term sum is its two terms, and the definitions of the operations on the extended reals. The floor
  constant is never evaluated: it stays the word's value on both sides.

  Results: `v7_0`/`v7_1` and `v29_0`/`v29_1` (the normalised first vectors), `v18_0`/`v18_1` and
  `v40_0`/`v40_1` (the normalised remainders), `v45_b` (the ninth number).
-/
import proofs.«154047_j78185584656835_2_alg».proof.Proof.Gen.ReferenceIdeal.Read
import proofs.«154047_j78185584656835_2_alg».proof.Proof.Spec
import Idealize.ShloMosaic.Lib.ValueIdx
import Idealize.ShloMosaic.PureOps.Ideal
import Idealize.ShloMosaic.Lib.Pipeline.Value

noncomputable section

namespace Cert.ReferenceIdeal.RefGram

open Idealize.ShloMosaic Idealize.ShloMosaic.ValueIdx
open Cert.ReferenceIdeal Cert.ReferenceIdeal.Read Cert.Gram

/-- Two rank-2 indices with the same coordinates are equal. -/
theorem idx2_eq {n0 n1 : Nat} {i j : (⟨2, ![n0, n1]⟩ : Shape).Idx}
    (h0 : (i ⟨0, Nat.zero_lt_two⟩).val = (j ⟨0, Nat.zero_lt_two⟩).val)
    (h1 : (i ⟨1, Nat.one_lt_two⟩).val = (j ⟨1, Nat.one_lt_two⟩).val) : i = j :=
  funext fun a => Fin.ext (by match a with | ⟨0, _⟩ => exact h0 | ⟨1, _⟩ => exact h1)

/-- Two rank-1 indices with the same coordinate are equal. -/
theorem idx1_eq {n0 : Nat} {i j : (⟨1, ![n0]⟩ : Shape).Idx}
    (h0 : (i ⟨0, Nat.one_pos⟩).val = (j ⟨0, Nat.one_pos⟩).val) : i = j :=
  funext fun a => Fin.ext (by match a with | ⟨0, _⟩ => exact h0)

variable (x : (⟨S4194304x9, .f32⟩ : BufTy).Contents (Elt Ideal)) (b : Fin 4194304)

/-! ## The pair of plane vectors in columns 0 … 3 -/

/-- Column 0 of the four-column slice is column 0 of the argument. -/
theorem v0_0 : val_main_v0 (F := Ideal) x (ix2 b (0 : Fin 4)) = x (ix2 b (0 : Fin 9)) := by
  rw [val_main_v0_apply]
  exact congrArg x (idx2_eq rfl rfl)

/-- Column 1 of the four-column slice is column 1 of the argument. -/
theorem v0_1 : val_main_v0 (F := Ideal) x (ix2 b (1 : Fin 4)) = x (ix2 b (1 : Fin 9)) := by
  rw [val_main_v0_apply]
  exact congrArg x (idx2_eq rfl rfl)

/-- Column 2 of the four-column slice is column 2 of the argument. -/
theorem v0_2 : val_main_v0 (F := Ideal) x (ix2 b (2 : Fin 4)) = x (ix2 b (2 : Fin 9)) := by
  rw [val_main_v0_apply]
  exact congrArg x (idx2_eq rfl rfl)

/-- Column 3 of the four-column slice is column 3 of the argument. -/
theorem v0_3 : val_main_v0 (F := Ideal) x (ix2 b (3 : Fin 4)) = x (ix2 b (3 : Fin 9)) := by
  rw [val_main_v0_apply]
  exact congrArg x (idx2_eq rfl rfl)

/-- Coordinate 0 of the first vector is column 0 of the argument. -/
theorem v1_0 : val_main_v1 (F := Ideal) x (ix2 b (0 : Fin 2)) = x (ix2 b (0 : Fin 9)) := by
  rw [val_main_v1_apply]
  have hi : idx_main_v1 (ix2 b (0 : Fin 2)) = ix2 b (0 : Fin 4) := idx2_eq rfl rfl
  rw [hi, v0_0]

/-- Coordinate 1 of the first vector is column 1 of the argument. -/
theorem v1_1 : val_main_v1 (F := Ideal) x (ix2 b (1 : Fin 2)) = x (ix2 b (1 : Fin 9)) := by
  rw [val_main_v1_apply]
  have hi : idx_main_v1 (ix2 b (1 : Fin 2)) = ix2 b (1 : Fin 4) := idx2_eq rfl rfl
  rw [hi, v0_1]

/-- Coordinate 0 of the second vector is column 2 of the argument. -/
theorem v2_0 : val_main_v2 (F := Ideal) x (ix2 b (0 : Fin 2)) = x (ix2 b (2 : Fin 9)) := by
  rw [val_main_v2_apply]
  have hi : idx_main_v2 (ix2 b (0 : Fin 2)) = ix2 b (2 : Fin 4) := idx2_eq rfl rfl
  rw [hi, v0_2]

/-- Coordinate 1 of the second vector is column 3 of the argument. -/
theorem v2_1 : val_main_v2 (F := Ideal) x (ix2 b (1 : Fin 2)) = x (ix2 b (3 : Fin 9)) := by
  rw [val_main_v2_apply]
  have hi : idx_main_v2 (ix2 b (1 : Fin 2)) = ix2 b (3 : Fin 4) := idx2_eq rfl rfl
  rw [hi, v0_3]

/-- The sum of squares of the first vector at row b: 0 plus the two squares. -/
theorem call0_v1_b : val_main_call0_v1 (F := Ideal) x (ix1 b) = (x (ix2 b (0 : Fin 9)) * x (ix2 b (0 : Fin 9)) + x (ix2 b (1 : Fin 9)) * x (ix2 b (1 : Fin 9)) : EReal) := by
  rw [val_main_call0_v1_apply, Fin.sum_univ_two]
  have h0 : idx_main_call0_v1 (ix1 b) (0 : Fin 2) = ix2 b (0 : Fin 2) := idx2_eq rfl rfl
  have h1 : idx_main_call0_v1 (ix1 b) (1 : Fin 2) = ix2 b (1 : Fin 2) := idx2_eq rfl rfl
  rw [h0, h1, val_main_call0_v0_apply, val_main_call0_v0_apply, v1_0, v1_1, val_main_call0_cst_apply,
    Ideal.ofBits_def, Ideal.ofBits_zero_f32, Ideal.mulf_def, Ideal.mulf_def, zero_add]

/-- The floored norm of the first vector at row b. -/
theorem v5_b : val_main_v5 (F := Ideal) x (ix2 b (0 : Fin 1)) = norm (x (ix2 b (0 : Fin 9))) (x (ix2 b (1 : Fin 9))) := by
  rw [val_main_v5_apply, val_main_v3_apply, val_main_call0_v2_apply]
  have hi : idx_main_call0_v2 (ix2 b (0 : Fin 1)) = ix1 b := idx1_eq rfl
  rw [hi, call0_v1_b, val_main_v4_apply, val_main_cst_apply]
  rfl

/-- The same floored norm, repeated along the two columns. -/
theorem v6_at (p : Fin 2) : val_main_v6 (F := Ideal) x (ix2 b p) = norm (x (ix2 b (0 : Fin 9))) (x (ix2 b (1 : Fin 9))) := by
  rw [val_main_v6_apply]
  have hi : idx_main_v6 (ix2 b p) = ix2 b (0 : Fin 1) := idx2_eq rfl rfl
  rw [hi, v5_b]

/-- Coordinate 0 of the first vector divided by its floored norm. -/
theorem v7_0 : val_main_v7 (F := Ideal) x (ix2 b (0 : Fin 2)) = u1 (x (ix2 b (0 : Fin 9))) (x (ix2 b (1 : Fin 9))) := by
  rw [val_main_v7_apply, v1_0, v6_at]
  rfl

/-- Coordinate 1 of the first vector divided by its floored norm. -/
theorem v7_1 : val_main_v7 (F := Ideal) x (ix2 b (1 : Fin 2)) = u2 (x (ix2 b (0 : Fin 9))) (x (ix2 b (1 : Fin 9))) := by
  rw [val_main_v7_apply, v1_1, v6_at]
  rfl

/-- Product 0 of the component along the normalised first vector. -/
theorem v8_0 : val_main_v8 (F := Ideal) x (ix2 b (0 : Fin 2)) = (u1 (x (ix2 b (0 : Fin 9))) (x (ix2 b (1 : Fin 9))) * x (ix2 b (2 : Fin 9)) : EReal) := by
  rw [val_main_v8_apply, v7_0, v2_0]
  rfl

/-- Product 1 of the component along the normalised first vector. -/
theorem v8_1 : val_main_v8 (F := Ideal) x (ix2 b (1 : Fin 2)) = (u2 (x (ix2 b (0 : Fin 9))) (x (ix2 b (1 : Fin 9))) * x (ix2 b (3 : Fin 9)) : EReal) := by
  rw [val_main_v8_apply, v7_1, v2_1]
  rfl

/-- The component of the second vector along the normalised first: 0 plus the two products. -/
theorem v9_b : val_main_v9 (F := Ideal) x (ix1 b) = along (x (ix2 b (0 : Fin 9))) (x (ix2 b (1 : Fin 9))) (x (ix2 b (2 : Fin 9))) (x (ix2 b (3 : Fin 9))) := by
  rw [val_main_v9_apply, Fin.sum_univ_two]
  have h0 : idx_main_v9 (ix1 b) (0 : Fin 2) = ix2 b (0 : Fin 2) := idx2_eq rfl rfl
  have h1 : idx_main_v9 (ix1 b) (1 : Fin 2) = ix2 b (1 : Fin 2) := idx2_eq rfl rfl
  rw [h0, h1, v8_0, v8_1, val_main_cst_0_apply, Ideal.ofBits_def, Ideal.ofBits_zero_f32, zero_add]
  rfl

/-- The same component, as a one-column stage. -/
theorem v10_b : val_main_v10 (F := Ideal) x (ix2 b (0 : Fin 1)) = along (x (ix2 b (0 : Fin 9))) (x (ix2 b (1 : Fin 9))) (x (ix2 b (2 : Fin 9))) (x (ix2 b (3 : Fin 9))) := by
  rw [val_main_v10_apply]
  have hi : idx_main_v10 (ix2 b (0 : Fin 1)) = ix1 b := idx1_eq rfl
  rw [hi, v9_b]

/-- The same component, repeated along the two columns. -/
theorem v11_at (p : Fin 2) : val_main_v11 (F := Ideal) x (ix2 b p) = along (x (ix2 b (0 : Fin 9))) (x (ix2 b (1 : Fin 9))) (x (ix2 b (2 : Fin 9))) (x (ix2 b (3 : Fin 9))) := by
  rw [val_main_v11_apply]
  have hi : idx_main_v11 (ix2 b p) = ix2 b (0 : Fin 1) := idx2_eq rfl rfl
  rw [hi, v10_b]

/-- Coordinate 0 of the second vector less its component along the first. -/
theorem v13_0 : val_main_v13 (F := Ideal) x (ix2 b (0 : Fin 2)) = rest1 (x (ix2 b (0 : Fin 9))) (x (ix2 b (1 : Fin 9))) (x (ix2 b (2 : Fin 9))) (x (ix2 b (3 : Fin 9))) := by
  rw [val_main_v13_apply, v2_0, val_main_v12_apply, v7_0, v11_at]
  rfl

/-- Coordinate 1 of the second vector less its component along the first. -/
theorem v13_1 : val_main_v13 (F := Ideal) x (ix2 b (1 : Fin 2)) = rest2 (x (ix2 b (0 : Fin 9))) (x (ix2 b (1 : Fin 9))) (x (ix2 b (2 : Fin 9))) (x (ix2 b (3 : Fin 9))) := by
  rw [val_main_v13_apply, v2_1, val_main_v12_apply, v7_1, v11_at]
  rfl

/-- The sum of squares of the remainder at row b: 0 plus the two squares. -/
theorem call1_v1_b : val_main_call1_v1 (F := Ideal) x (ix1 b) = (rest1 (x (ix2 b (0 : Fin 9))) (x (ix2 b (1 : Fin 9))) (x (ix2 b (2 : Fin 9))) (x (ix2 b (3 : Fin 9))) * rest1 (x (ix2 b (0 : Fin 9))) (x (ix2 b (1 : Fin 9))) (x (ix2 b (2 : Fin 9))) (x (ix2 b (3 : Fin 9))) + rest2 (x (ix2 b (0 : Fin 9))) (x (ix2 b (1 : Fin 9))) (x (ix2 b (2 : Fin 9))) (x (ix2 b (3 : Fin 9))) * rest2 (x (ix2 b (0 : Fin 9))) (x (ix2 b (1 : Fin 9))) (x (ix2 b (2 : Fin 9))) (x (ix2 b (3 : Fin 9))) : EReal) := by
  rw [val_main_call1_v1_apply, Fin.sum_univ_two]
  have h0 : idx_main_call1_v1 (ix1 b) (0 : Fin 2) = ix2 b (0 : Fin 2) := idx2_eq rfl rfl
  have h1 : idx_main_call1_v1 (ix1 b) (1 : Fin 2) = ix2 b (1 : Fin 2) := idx2_eq rfl rfl
  rw [h0, h1, val_main_call1_v0_apply, val_main_call1_v0_apply, v13_0, v13_1, val_main_call1_cst_apply,
    Ideal.ofBits_def, Ideal.ofBits_zero_f32, Ideal.mulf_def, Ideal.mulf_def, zero_add]

/-- The floored norm of the remainder at row b. -/
theorem v16_b : val_main_v16 (F := Ideal) x (ix2 b (0 : Fin 1)) = norm (rest1 (x (ix2 b (0 : Fin 9))) (x (ix2 b (1 : Fin 9))) (x (ix2 b (2 : Fin 9))) (x (ix2 b (3 : Fin 9)))) (rest2 (x (ix2 b (0 : Fin 9))) (x (ix2 b (1 : Fin 9))) (x (ix2 b (2 : Fin 9))) (x (ix2 b (3 : Fin 9)))) := by
  rw [val_main_v16_apply, val_main_v14_apply, val_main_call1_v2_apply]
  have hi : idx_main_call1_v2 (ix2 b (0 : Fin 1)) = ix1 b := idx1_eq rfl
  rw [hi, call1_v1_b, val_main_v15_apply, val_main_cst_1_apply]
  rfl

/-- The same floored norm, repeated along the two columns. -/
theorem v17_at (p : Fin 2) : val_main_v17 (F := Ideal) x (ix2 b p) = norm (rest1 (x (ix2 b (0 : Fin 9))) (x (ix2 b (1 : Fin 9))) (x (ix2 b (2 : Fin 9))) (x (ix2 b (3 : Fin 9)))) (rest2 (x (ix2 b (0 : Fin 9))) (x (ix2 b (1 : Fin 9))) (x (ix2 b (2 : Fin 9))) (x (ix2 b (3 : Fin 9)))) := by
  rw [val_main_v17_apply]
  have hi : idx_main_v17 (ix2 b p) = ix2 b (0 : Fin 1) := idx2_eq rfl rfl
  rw [hi, v16_b]

/-- Coordinate 0 of the remainder divided by its floored norm. -/
theorem v18_0 : val_main_v18 (F := Ideal) x (ix2 b (0 : Fin 2)) = g1 (x (ix2 b (0 : Fin 9))) (x (ix2 b (1 : Fin 9))) (x (ix2 b (2 : Fin 9))) (x (ix2 b (3 : Fin 9))) := by
  rw [val_main_v18_apply, v13_0, v17_at]
  rfl

/-- Coordinate 1 of the remainder divided by its floored norm. -/
theorem v18_1 : val_main_v18 (F := Ideal) x (ix2 b (1 : Fin 2)) = g2 (x (ix2 b (0 : Fin 9))) (x (ix2 b (1 : Fin 9))) (x (ix2 b (2 : Fin 9))) (x (ix2 b (3 : Fin 9))) := by
  rw [val_main_v18_apply, v13_1, v17_at]
  rfl

/-! ## The pair of plane vectors in columns 4 … 7 -/

/-- Column 0 of the four-column slice is column 4 of the argument. -/
theorem v22_0 : val_main_v22 (F := Ideal) x (ix2 b (0 : Fin 4)) = x (ix2 b (4 : Fin 9)) := by
  rw [val_main_v22_apply]
  exact congrArg x (idx2_eq rfl rfl)

/-- Column 1 of the four-column slice is column 5 of the argument. -/
theorem v22_1 : val_main_v22 (F := Ideal) x (ix2 b (1 : Fin 4)) = x (ix2 b (5 : Fin 9)) := by
  rw [val_main_v22_apply]
  exact congrArg x (idx2_eq rfl rfl)

/-- Column 2 of the four-column slice is column 6 of the argument. -/
theorem v22_2 : val_main_v22 (F := Ideal) x (ix2 b (2 : Fin 4)) = x (ix2 b (6 : Fin 9)) := by
  rw [val_main_v22_apply]
  exact congrArg x (idx2_eq rfl rfl)

/-- Column 3 of the four-column slice is column 7 of the argument. -/
theorem v22_3 : val_main_v22 (F := Ideal) x (ix2 b (3 : Fin 4)) = x (ix2 b (7 : Fin 9)) := by
  rw [val_main_v22_apply]
  exact congrArg x (idx2_eq rfl rfl)

/-- Coordinate 0 of the first vector is column 4 of the argument. -/
theorem v23_0 : val_main_v23 (F := Ideal) x (ix2 b (0 : Fin 2)) = x (ix2 b (4 : Fin 9)) := by
  rw [val_main_v23_apply]
  have hi : idx_main_v23 (ix2 b (0 : Fin 2)) = ix2 b (0 : Fin 4) := idx2_eq rfl rfl
  rw [hi, v22_0]

/-- Coordinate 1 of the first vector is column 5 of the argument. -/
theorem v23_1 : val_main_v23 (F := Ideal) x (ix2 b (1 : Fin 2)) = x (ix2 b (5 : Fin 9)) := by
  rw [val_main_v23_apply]
  have hi : idx_main_v23 (ix2 b (1 : Fin 2)) = ix2 b (1 : Fin 4) := idx2_eq rfl rfl
  rw [hi, v22_1]

/-- Coordinate 0 of the second vector is column 6 of the argument. -/
theorem v24_0 : val_main_v24 (F := Ideal) x (ix2 b (0 : Fin 2)) = x (ix2 b (6 : Fin 9)) := by
  rw [val_main_v24_apply]
  have hi : idx_main_v24 (ix2 b (0 : Fin 2)) = ix2 b (2 : Fin 4) := idx2_eq rfl rfl
  rw [hi, v22_2]

/-- Coordinate 1 of the second vector is column 7 of the argument. -/
theorem v24_1 : val_main_v24 (F := Ideal) x (ix2 b (1 : Fin 2)) = x (ix2 b (7 : Fin 9)) := by
  rw [val_main_v24_apply]
  have hi : idx_main_v24 (ix2 b (1 : Fin 2)) = ix2 b (3 : Fin 4) := idx2_eq rfl rfl
  rw [hi, v22_3]

/-- The sum of squares of the first vector at row b: 0 plus the two squares. -/
theorem call2_v1_b : val_main_call2_v1 (F := Ideal) x (ix1 b) = (x (ix2 b (4 : Fin 9)) * x (ix2 b (4 : Fin 9)) + x (ix2 b (5 : Fin 9)) * x (ix2 b (5 : Fin 9)) : EReal) := by
  rw [val_main_call2_v1_apply, Fin.sum_univ_two]
  have h0 : idx_main_call2_v1 (ix1 b) (0 : Fin 2) = ix2 b (0 : Fin 2) := idx2_eq rfl rfl
  have h1 : idx_main_call2_v1 (ix1 b) (1 : Fin 2) = ix2 b (1 : Fin 2) := idx2_eq rfl rfl
  rw [h0, h1, val_main_call2_v0_apply, val_main_call2_v0_apply, v23_0, v23_1, val_main_call2_cst_apply,
    Ideal.ofBits_def, Ideal.ofBits_zero_f32, Ideal.mulf_def, Ideal.mulf_def, zero_add]

/-- The floored norm of the first vector at row b. -/
theorem v27_b : val_main_v27 (F := Ideal) x (ix2 b (0 : Fin 1)) = norm (x (ix2 b (4 : Fin 9))) (x (ix2 b (5 : Fin 9))) := by
  rw [val_main_v27_apply, val_main_v25_apply, val_main_call2_v2_apply]
  have hi : idx_main_call2_v2 (ix2 b (0 : Fin 1)) = ix1 b := idx1_eq rfl
  rw [hi, call2_v1_b, val_main_v26_apply, val_main_cst_2_apply]
  rfl

/-- The same floored norm, repeated along the two columns. -/
theorem v28_at (p : Fin 2) : val_main_v28 (F := Ideal) x (ix2 b p) = norm (x (ix2 b (4 : Fin 9))) (x (ix2 b (5 : Fin 9))) := by
  rw [val_main_v28_apply]
  have hi : idx_main_v28 (ix2 b p) = ix2 b (0 : Fin 1) := idx2_eq rfl rfl
  rw [hi, v27_b]

/-- Coordinate 0 of the first vector divided by its floored norm. -/
theorem v29_0 : val_main_v29 (F := Ideal) x (ix2 b (0 : Fin 2)) = u1 (x (ix2 b (4 : Fin 9))) (x (ix2 b (5 : Fin 9))) := by
  rw [val_main_v29_apply, v23_0, v28_at]
  rfl

/-- Coordinate 1 of the first vector divided by its floored norm. -/
theorem v29_1 : val_main_v29 (F := Ideal) x (ix2 b (1 : Fin 2)) = u2 (x (ix2 b (4 : Fin 9))) (x (ix2 b (5 : Fin 9))) := by
  rw [val_main_v29_apply, v23_1, v28_at]
  rfl

/-- Product 0 of the component along the normalised first vector. -/
theorem v30_0 : val_main_v30 (F := Ideal) x (ix2 b (0 : Fin 2)) = (u1 (x (ix2 b (4 : Fin 9))) (x (ix2 b (5 : Fin 9))) * x (ix2 b (6 : Fin 9)) : EReal) := by
  rw [val_main_v30_apply, v29_0, v24_0]
  rfl

/-- Product 1 of the component along the normalised first vector. -/
theorem v30_1 : val_main_v30 (F := Ideal) x (ix2 b (1 : Fin 2)) = (u2 (x (ix2 b (4 : Fin 9))) (x (ix2 b (5 : Fin 9))) * x (ix2 b (7 : Fin 9)) : EReal) := by
  rw [val_main_v30_apply, v29_1, v24_1]
  rfl

/-- The component of the second vector along the normalised first: 0 plus the two products. -/
theorem v31_b : val_main_v31 (F := Ideal) x (ix1 b) = along (x (ix2 b (4 : Fin 9))) (x (ix2 b (5 : Fin 9))) (x (ix2 b (6 : Fin 9))) (x (ix2 b (7 : Fin 9))) := by
  rw [val_main_v31_apply, Fin.sum_univ_two]
  have h0 : idx_main_v31 (ix1 b) (0 : Fin 2) = ix2 b (0 : Fin 2) := idx2_eq rfl rfl
  have h1 : idx_main_v31 (ix1 b) (1 : Fin 2) = ix2 b (1 : Fin 2) := idx2_eq rfl rfl
  rw [h0, h1, v30_0, v30_1, val_main_cst_3_apply, Ideal.ofBits_def, Ideal.ofBits_zero_f32, zero_add]
  rfl

/-- The same component, as a one-column stage. -/
theorem v32_b : val_main_v32 (F := Ideal) x (ix2 b (0 : Fin 1)) = along (x (ix2 b (4 : Fin 9))) (x (ix2 b (5 : Fin 9))) (x (ix2 b (6 : Fin 9))) (x (ix2 b (7 : Fin 9))) := by
  rw [val_main_v32_apply]
  have hi : idx_main_v32 (ix2 b (0 : Fin 1)) = ix1 b := idx1_eq rfl
  rw [hi, v31_b]

/-- The same component, repeated along the two columns. -/
theorem v33_at (p : Fin 2) : val_main_v33 (F := Ideal) x (ix2 b p) = along (x (ix2 b (4 : Fin 9))) (x (ix2 b (5 : Fin 9))) (x (ix2 b (6 : Fin 9))) (x (ix2 b (7 : Fin 9))) := by
  rw [val_main_v33_apply]
  have hi : idx_main_v33 (ix2 b p) = ix2 b (0 : Fin 1) := idx2_eq rfl rfl
  rw [hi, v32_b]

/-- Coordinate 0 of the second vector less its component along the first. -/
theorem v35_0 : val_main_v35 (F := Ideal) x (ix2 b (0 : Fin 2)) = rest1 (x (ix2 b (4 : Fin 9))) (x (ix2 b (5 : Fin 9))) (x (ix2 b (6 : Fin 9))) (x (ix2 b (7 : Fin 9))) := by
  rw [val_main_v35_apply, v24_0, val_main_v34_apply, v29_0, v33_at]
  rfl

/-- Coordinate 1 of the second vector less its component along the first. -/
theorem v35_1 : val_main_v35 (F := Ideal) x (ix2 b (1 : Fin 2)) = rest2 (x (ix2 b (4 : Fin 9))) (x (ix2 b (5 : Fin 9))) (x (ix2 b (6 : Fin 9))) (x (ix2 b (7 : Fin 9))) := by
  rw [val_main_v35_apply, v24_1, val_main_v34_apply, v29_1, v33_at]
  rfl

/-- The sum of squares of the remainder at row b: 0 plus the two squares. -/
theorem call3_v1_b : val_main_call3_v1 (F := Ideal) x (ix1 b) = (rest1 (x (ix2 b (4 : Fin 9))) (x (ix2 b (5 : Fin 9))) (x (ix2 b (6 : Fin 9))) (x (ix2 b (7 : Fin 9))) * rest1 (x (ix2 b (4 : Fin 9))) (x (ix2 b (5 : Fin 9))) (x (ix2 b (6 : Fin 9))) (x (ix2 b (7 : Fin 9))) + rest2 (x (ix2 b (4 : Fin 9))) (x (ix2 b (5 : Fin 9))) (x (ix2 b (6 : Fin 9))) (x (ix2 b (7 : Fin 9))) * rest2 (x (ix2 b (4 : Fin 9))) (x (ix2 b (5 : Fin 9))) (x (ix2 b (6 : Fin 9))) (x (ix2 b (7 : Fin 9))) : EReal) := by
  rw [val_main_call3_v1_apply, Fin.sum_univ_two]
  have h0 : idx_main_call3_v1 (ix1 b) (0 : Fin 2) = ix2 b (0 : Fin 2) := idx2_eq rfl rfl
  have h1 : idx_main_call3_v1 (ix1 b) (1 : Fin 2) = ix2 b (1 : Fin 2) := idx2_eq rfl rfl
  rw [h0, h1, val_main_call3_v0_apply, val_main_call3_v0_apply, v35_0, v35_1, val_main_call3_cst_apply,
    Ideal.ofBits_def, Ideal.ofBits_zero_f32, Ideal.mulf_def, Ideal.mulf_def, zero_add]

/-- The floored norm of the remainder at row b. -/
theorem v38_b : val_main_v38 (F := Ideal) x (ix2 b (0 : Fin 1)) = norm (rest1 (x (ix2 b (4 : Fin 9))) (x (ix2 b (5 : Fin 9))) (x (ix2 b (6 : Fin 9))) (x (ix2 b (7 : Fin 9)))) (rest2 (x (ix2 b (4 : Fin 9))) (x (ix2 b (5 : Fin 9))) (x (ix2 b (6 : Fin 9))) (x (ix2 b (7 : Fin 9)))) := by
  rw [val_main_v38_apply, val_main_v36_apply, val_main_call3_v2_apply]
  have hi : idx_main_call3_v2 (ix2 b (0 : Fin 1)) = ix1 b := idx1_eq rfl
  rw [hi, call3_v1_b, val_main_v37_apply, val_main_cst_4_apply]
  rfl

/-- The same floored norm, repeated along the two columns. -/
theorem v39_at (p : Fin 2) : val_main_v39 (F := Ideal) x (ix2 b p) = norm (rest1 (x (ix2 b (4 : Fin 9))) (x (ix2 b (5 : Fin 9))) (x (ix2 b (6 : Fin 9))) (x (ix2 b (7 : Fin 9)))) (rest2 (x (ix2 b (4 : Fin 9))) (x (ix2 b (5 : Fin 9))) (x (ix2 b (6 : Fin 9))) (x (ix2 b (7 : Fin 9)))) := by
  rw [val_main_v39_apply]
  have hi : idx_main_v39 (ix2 b p) = ix2 b (0 : Fin 1) := idx2_eq rfl rfl
  rw [hi, v38_b]

/-- Coordinate 0 of the remainder divided by its floored norm. -/
theorem v40_0 : val_main_v40 (F := Ideal) x (ix2 b (0 : Fin 2)) = g1 (x (ix2 b (4 : Fin 9))) (x (ix2 b (5 : Fin 9))) (x (ix2 b (6 : Fin 9))) (x (ix2 b (7 : Fin 9))) := by
  rw [val_main_v40_apply, v35_0, v39_at]
  rfl

/-- Coordinate 1 of the remainder divided by its floored norm. -/
theorem v40_1 : val_main_v40 (F := Ideal) x (ix2 b (1 : Fin 2)) = g2 (x (ix2 b (4 : Fin 9))) (x (ix2 b (5 : Fin 9))) (x (ix2 b (6 : Fin 9))) (x (ix2 b (7 : Fin 9))) := by
  rw [val_main_v40_apply, v35_1, v39_at]
  rfl

/-! ## The ninth number -/

/-- The reshaped one-column slice at row b is column 8 of the argument. -/
theorem v45_b : val_main_v45 (F := Ideal) x (ix1 b) = x (ix2 b (8 : Fin 9)) := by
  rw [val_main_v45_apply]
  have hi : idx_main_v45 (ix1 b) = ix2 b (0 : Fin 1) := idx2_eq (Nat.div_one _) rfl
  rw [hi, val_main_v44_apply]
  exact congrArg x (idx2_eq rfl rfl)

end Cert.ReferenceIdeal.RefGram

end
-- ==== Proof.RefValue.lean ====
/-
  The reference computes the row results.

  Entry (b, 0, j) of the reference's result is entry (b, j, 0) of the product  (Rz · Rx) · t  for row b, where Rz is
  the rotation about the third axis built from the second orthonormal pair, Rx the rotation about the first axis
  built from the first pair, and t the column (0, 0, d). Writing the sums over three terms out, every term but one
  has a factor 0 (and the surviving ones a factor 1 where the identity contributes); what is left is the last
  column of Rz · Rx times d, namely (z₁ · y₁) · d, (z₂ · y₁) · d and y₂ · d, with y and z the second vectors of the
  two pairs. A product with 0 is 0 and a sum with 0 is the other summand on the extended reals too, and products
  commute and associate there, so these are the row results d · z₁ · y₁, d · z₂ · y₁, d · y₂.
-/
import proofs.«154047_j78185584656835_2_alg».proof.Proof.Gen.ReferenceIdeal.Read
import proofs.«154047_j78185584656835_2_alg».proof.Proof.Spec
import proofs.«154047_j78185584656835_2_alg».proof.Proof.RefMatrix
import proofs.«154047_j78185584656835_2_alg».proof.Proof.RefGram

set_option maxRecDepth 16384

noncomputable section

namespace Cert.ReferenceIdeal.RefValue

open Cert.ReferenceIdeal Cert.ReferenceIdeal.Gen Cert.ReferenceIdeal.Read Cert.ReferenceIdeal.RefMatrix Cert.ReferenceIdeal.RefGram
open Idealize.ShloMosaic Idealize.ShloMosaic.ValueIdx Cert.Gram

variable (x : (⟨S4194304x9, .f32⟩ : BufTy).Contents (Elt Ideal)) (b : Fin 4194304)

/-! ## The indices the two products and the last reshape read -/

theorem idx68 (u : Fin 1) (j : Fin 3) : idx_main_v68 (ix3 b u j) = ix3 b j (0 : Fin 1) := by
  funext a; apply Fin.ext
  have hu : u.val = 0 := by omega
  have hj : j.val < 3 := j.isLt
  match a with
  | ⟨0, _⟩ => show ((b.val * 1 + u.val) * 3 + j.val) / 3 = b.val; omega
  | ⟨1, _⟩ => show ((b.val * 1 + u.val) * 3 + j.val) / 1 % 3 = j.val; omega
  | ⟨2, _⟩ => rfl

theorem lidx67 (j : Fin 3) (r : Fin 1) (k : Fin 3) : lidx_main_v67 (ix3 b j r) k = ix3 b j k :=
  funext fun a => Fin.ext (by match a with | ⟨0, _⟩ => rfl | ⟨1, _⟩ => rfl | ⟨2, _⟩ => rfl)
theorem ridx67 (j : Fin 3) (r : Fin 1) (k : Fin 3) : ridx_main_v67 (ix3 b j r) k = ix3 b k r :=
  funext fun a => Fin.ext (by match a with | ⟨0, _⟩ => rfl | ⟨1, _⟩ => rfl | ⟨2, _⟩ => rfl)
theorem lidx61 (i k l : Fin 3) : lidx_main_v61 (ix3 b i k) l = ix3 b i l :=
  funext fun a => Fin.ext (by match a with | ⟨0, _⟩ => rfl | ⟨1, _⟩ => rfl | ⟨2, _⟩ => rfl)
theorem ridx61 (i k l : Fin 3) : ridx_main_v61 (ix3 b i k) l = ix3 b l k :=
  funext fun a => Fin.ext (by match a with | ⟨0, _⟩ => rfl | ⟨1, _⟩ => rfl | ⟨2, _⟩ => rfl)

/-! ## The two products, written out -/

/-- Entry (i, k) of the product of the two rotations. -/
theorem prod_at (i k : Fin 3) :
    val_main_v61 (F := Ideal) x (ix3 b i k)
      = val_main_v56 (F := Ideal) x (ix3 b i (0 : Fin 3)) * val_main_v60 (F := Ideal) x (ix3 b (0 : Fin 3) k)
        + val_main_v56 (F := Ideal) x (ix3 b i (1 : Fin 3)) * val_main_v60 (F := Ideal) x (ix3 b (1 : Fin 3) k)
        + val_main_v56 (F := Ideal) x (ix3 b i (2 : Fin 3)) * val_main_v60 (F := Ideal) x (ix3 b (2 : Fin 3) k) := by
  rw [val_main_v61_apply, Fin.sum_univ_three, lidx61, lidx61, lidx61, ridx61, ridx61, ridx61]

/-- Entry (j, 0) of that product applied to the column (0, 0, d): only the last column of the product meets d. -/
theorem applied_at (j : Fin 3) (r : Fin 1) :
    val_main_v67 (F := Ideal) x (ix3 b j r)
      = val_main_v61 (F := Ideal) x (ix3 b j (2 : Fin 3)) * x (ix2 b (8 : Fin 9)) := by
  rw [val_main_v67_apply, Fin.sum_univ_three, lidx67, lidx67, lidx67, ridx67, ridx67, ridx67,
    m66_0, m66_1, m66_2, v45_b, mul_zero, mul_zero, zero_add, zero_add]

/-! ## The three results of a row -/

theorem row0 (u : Fin 1) : val_main_v68 (F := Ideal) x (ix3 b u (0 : Fin 3)) = row (fun k => x (ix2 b k)) (0 : Fin 3) := by
  rw [val_main_v68_apply, idx68, applied_at, prod_at, m56_0_0, m56_0_1, m56_0_2, m60_0_2, m60_1_2, m60_2_2,
    v40_0, v18_0, mul_zero, zero_mul, zero_add, add_zero]
  show _ = x (ix2 b (8 : Fin 9)) * g1 (x (ix2 b (4 : Fin 9))) (x (ix2 b (5 : Fin 9))) (x (ix2 b (6 : Fin 9))) (x (ix2 b (7 : Fin 9)))
      * g1 (x (ix2 b (0 : Fin 9))) (x (ix2 b (1 : Fin 9))) (x (ix2 b (2 : Fin 9))) (x (ix2 b (3 : Fin 9)))
  rw [mul_comm, mul_assoc]

theorem row1 (u : Fin 1) : val_main_v68 (F := Ideal) x (ix3 b u (1 : Fin 3)) = row (fun k => x (ix2 b k)) (1 : Fin 3) := by
  rw [val_main_v68_apply, idx68, applied_at, prod_at, m56_1_0, m56_1_1, m56_1_2, m60_0_2, m60_1_2, m60_2_2,
    v40_1, v18_0, mul_zero, zero_mul, zero_add, add_zero]
  show _ = x (ix2 b (8 : Fin 9)) * g2 (x (ix2 b (4 : Fin 9))) (x (ix2 b (5 : Fin 9))) (x (ix2 b (6 : Fin 9))) (x (ix2 b (7 : Fin 9)))
      * g1 (x (ix2 b (0 : Fin 9))) (x (ix2 b (1 : Fin 9))) (x (ix2 b (2 : Fin 9))) (x (ix2 b (3 : Fin 9)))
  rw [mul_comm, mul_assoc]

theorem row2 (u : Fin 1) : val_main_v68 (F := Ideal) x (ix3 b u (2 : Fin 3)) = row (fun k => x (ix2 b k)) (2 : Fin 3) := by
  rw [val_main_v68_apply, idx68, applied_at, prod_at, m56_2_0, m56_2_1, m56_2_2, m60_0_2, m60_1_2, m60_2_2,
    v18_1, mul_zero, zero_mul, zero_add, zero_add, one_mul]
  show _ = x (ix2 b (8 : Fin 9)) * g2 (x (ix2 b (0 : Fin 9))) (x (ix2 b (1 : Fin 9))) (x (ix2 b (2 : Fin 9))) (x (ix2 b (3 : Fin 9)))
  rw [mul_comm]

end Cert.ReferenceIdeal.RefValue

namespace Cert.ReferenceIdeal.RefValue

open Cert.ReferenceIdeal Cert.ReferenceIdeal.Read Idealize.ShloMosaic Idealize.ShloMosaic.ValueIdx Cert.Gram

/-- The reference's result is the row function of the argument. -/
theorem ref_eq (x : (⟨S4194304x9, .f32⟩ : BufTy).Contents (Elt Ideal)) : val_main_v68 (F := Ideal) x = G x := by
  funext i
  obtain ⟨b, u, j, rfl⟩ : ∃ (b : Fin 4194304) (u : Fin 1) (j : Fin 3), i = ix3 b u j := ⟨i 0, i 1, i 2, eq_ix3 i⟩
  show _ = row (fun k => x (ix2 b k)) j
  match j with
  | ⟨0, _⟩ => exact row0 x b u
  | ⟨1, _⟩ => exact row1 x b u
  | ⟨2, _⟩ => exact row2 x b u

end Cert.ReferenceIdeal.RefValue

end
-- ==== Proof.lean ====
/-
  The claim: the kernel's program, read over the extended reals, and the reference compute the same array.

  Each row of the argument [4194304, 9] holds two pairs of plane vectors and a length d. Both programs orthonormalise
  each pair by Gram–Schmidt (norms floored at the same small constant) and return, for the second vectors y and z of
  the two pairs, the three numbers d · z₁ · y₁, d · z₂ · y₁, d · y₂ (Proof/Spec.lean).

  The kernel's program transposes the argument into nine planes of 32768 × 128 entries, lets each of 32 grid points
  compute those three products pointwise on its 1024 rows of the planes, and transposes the three result planes
  back (Proof/BodyValue.lean: one block; Proof/ArrayValue.lean: the blocks tile the array; Proof/HostParts.lean: the
  two transpositions; Proof/KernelValue.lean: together).

  The reference instead builds two 3 × 3 rotation matrices from the orthonormal pairs, multiplies them, and applies
  the product to the column (0, 0, d) (Proof/RefGram.lean: the orthonormal pairs; Proof/RefMatrix.lean: the
  matrices' entries; Proof/RefValue.lean: the products written out). All but one term of each sum has a factor 0, so
  no law beyond  0 · a = 0,  0 + a = a,  1 · a = a  and the commutativity and associativity of the product is needed,
  and these hold on the extended reals whether or not the entries are finite: the precondition is not used.

  The three programs' runs (termination, no fault, arguments unchanged) are the generated frame runs; the statement
  records no rewrite between the kernel as printed and its reading over the extended reals, so that conjunct is
  `True`.
-/
import proofs.«154047_j78185584656835_2_alg».proof.Defs
import proofs.«154047_j78185584656835_2_alg».proof.Proof.Gen.Kernel
import proofs.«154047_j78185584656835_2_alg».proof.Proof.Gen.Kernel.Skeleton
import proofs.«154047_j78185584656835_2_alg».proof.Proof.Gen.Kernel.Launch
import proofs.«154047_j78185584656835_2_alg».proof.Proof.Gen.Kernel.Points
import proofs.«154047_j78185584656835_2_alg».proof.Proof.Gen.Kernel.Frame
import proofs.«154047_j78185584656835_2_alg».proof.Proof.Gen.KernelIdeal
import proofs.«154047_j78185584656835_2_alg».proof.Proof.Gen.KernelIdeal.Skeleton
import proofs.«154047_j78185584656835_2_alg».proof.Proof.Gen.KernelIdeal.Launch
import proofs.«154047_j78185584656835_2_alg».proof.Proof.Gen.KernelIdeal.Points
import proofs.«154047_j78185584656835_2_alg».proof.Proof.Gen.KernelIdeal.Frame
import proofs.«154047_j78185584656835_2_alg».proof.Proof.Gen.ReferenceIdeal
import proofs.«154047_j78185584656835_2_alg».proof.Proof.Gen.ReferenceIdeal.Run
import proofs.«154047_j78185584656835_2_alg».proof.Proof.Gen.ReferenceIdeal.Read
import proofs.«154047_j78185584656835_2_alg».proof.Proof.Gen.Pre_finite_inputs
import proofs.«154047_j78185584656835_2_alg».proof.Proof.Spec
import proofs.«154047_j78185584656835_2_alg».proof.Proof.KernelValue
import proofs.«154047_j78185584656835_2_alg».proof.Proof.RefValue
import Idealize.ShloMosaic.Adequacy
import Idealize.ShloMosaic.Init

noncomputable section

namespace Cert.Proof

open Idealize.ShloMosaic Idealize.SL.Sem

/-- The kernel's program as printed runs and leaves its argument unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the row function of the argument as their result. -/
theorem algebraic : Cert.algebraic_KernelIdeal_ReferenceIdeal := by
  intro m ρ m' ρ' _ hagree
  refine ⟨fun c => Cert.Gram.G (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
